-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x128 : Shape := ⟨2, ![200000, 128]⟩
abbrev S100000x128 : Shape := ⟨2, ![100000, 128]⟩
abbrev S2x6400000 : Shape := ⟨2, ![2, 6400000]⟩
abbrev S2000000 : Shape := ⟨1, ![2000000]⟩
abbrev S128x32 : Shape := ⟨2, ![128, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S200000x128 : S_.BroadcastsInDim S200000x128 (![] : Fin 0 → Fin S200000x128.rank)
  reducesTo_S200000x128_S_d0_1 : S200000x128.ReducesTo [0, 1] S_
  h_S_ : 0 < S_.numel
  bcast_S_S100000x128 : S_.BroadcastsInDim S100000x128 (![] : Fin 0 → Fin S100000x128.rank)
  reducesTo_S100000x128_S_d0_1 : S100000x128.ReducesTo [0, 1] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg10 : FVec F S32x1 .f32) (main_arg11 : FVec F S1 .f32) (main_v33 : IVec S_ 1) : IVec S_ 1 :=
  let main_v34 : FVec F S32x1 .f32 := Host.absf main_arg10
  let main_cst_12 : FVec F S_ .f32 := constant S_ .f32 0x7F800000#32
  let main_v35 : FVec F S32x1 .f32 := broadcastInDim S32x1 ![] bcast_S_S32x1 main_cst_12
  let main_v36 : IVec S32x1 1 := cmpf .olt main_v34 main_v35
  let main_c_13 : IVec S_ 1 := constantI S_ 1 1#1
  let main_v37 : IVec S_ 1 := (fun x v => Host.reduce IntOp.andi x v reducesTo_S32x1_S_d0_1 h_S_) main_v36 main_c_13
  let main_v38 : IVec S_ 1 := andi main_v33 main_v37
  let main_v39 : FVec F S1 .f32 := Host.absf main_arg11
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg7 : FVec F S128x32 .f32) (main_arg8 : FVec F S32 .f32) (main_arg9 : FVec F S128x32 .f32) (main_arg10 : FVec F S32x1 .f32) (main_arg11 : FVec F S1 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S128x32 .f32 := Host.absf main_arg7
  let main_cst_6 : FVec F S_ .f32 := constant S_ .f32 0x7F800000#32
  let main_v20 : FVec F S128x32 .f32 := broadcastInDim S128x32 ![] bcast_S_S128x32 main_cst_6
  let main_v21 : IVec S128x32 1 := cmpf .olt main_v19 main_v20
  let main_c_7 : IVec S_ 1 := constantI S_ 1 1#1
  let main_v22 : IVec S_ 1 := (fun x v => Host.reduce IntOp.andi x v reducesTo_S128x32_S_d0_1 h_S_) main_v21 main_c_7
  let main_v23 : IVec S_ 1 := andi main_v18 main_v22
  let main_v24 : FVec F S32 .f32 := Host.absf main_arg8
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S128x32 .f32 := Host.absf main_arg9
  let main_cst_10 : FVec F S_ .f32 := constant S_ .f32 0x7F800000#32
  let main_v30 : FVec F S128x32 .f32 := broadcastInDim S128x32 ![] bcast_S_S128x32 main_cst_10
  let main_v31 : IVec S128x32 1 := cmpf .olt main_v29 main_v30
  let main_c_11 : IVec S_ 1 := constantI S_ 1 1#1
  let main_v32 : IVec S_ 1 := (fun x v => Host.reduce IntOp.andi x v reducesTo_S128x32_S_d0_1 h_S_) main_v31 main_c_11
  let main_v33 : IVec S_ 1 := andi main_v28 main_v32
  fn_part2 (F := F) main_arg10 main_arg11 main_v33

def fn {F : FTy → Type} [FloatOps F] (main_arg0 : FVec F S200000x128 .f32) (main_arg1 : FVec F S100000x128 .f32) (main_arg2 : IVec S2x6400000 32) (main_arg3 : IVec S2000000 32) (main_arg4 : IVec S2000000 32) (main_arg5 : FVec F S128x32 .f32) (main_arg6 : FVec F S32 .f32) (main_arg7 : FVec F S128x32 .f32) (main_arg8 : FVec F S32 .f32) (main_arg9 : FVec F S128x32 .f32) (main_arg10 : FVec F S32x1 .f32) (main_arg11 : FVec F S1 .f32) : IVec S_ 1 :=
  let main_v0 : FVec F S200000x128 .f32 := Host.absf main_arg0
  let main_cst : FVec F S_ .f32 := constant S_ .f32 0x7F800000#32
  let main_v1 : FVec F S200000x128 .f32 := broadcastInDim S200000x128 ![] bcast_S_S200000x128 main_cst
  let main_v2 : IVec S200000x128 1 := cmpf .olt main_v0 main_v1
  let main_c : IVec S_ 1 := constantI S_ 1 1#1
  let main_v3 : IVec S_ 1 := (fun x v => Host.reduce IntOp.andi x v reducesTo_S200000x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S128x32 .f32 := Host.absf main_arg5
  let main_cst_2 : FVec F S_ .f32 := constant S_ .f32 0x7F800000#32
  let main_v10 : FVec F S128x32 .f32 := broadcastInDim S128x32 ![] bcast_S_S128x32 main_cst_2
  let main_v11 : IVec S128x32 1 := cmpf .olt main_v9 main_v10
  let main_c_3 : IVec S_ 1 := constantI S_ 1 1#1
  let main_v12 : IVec S_ 1 := (fun x v => Host.reduce IntOp.andi x v reducesTo_S128x32_S_d0_1 h_S_) main_v11 main_c_3
  let main_v13 : IVec S_ 1 := andi main_v8 main_v12
  let main_v14 : FVec F S32 .f32 := Host.absf main_arg6
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg7 main_arg8 main_arg9 main_arg10 main_arg11 main_v13 main_v16
-- ==== Kernel.lean ====
abbrev S200000x128 : Shape := ⟨2, ![200000, 128]⟩
abbrev S100000x128 : Shape := ⟨2, ![100000, 128]⟩
abbrev S2x6400000 : Shape := ⟨2, ![2, 6400000]⟩
abbrev S2000000 : Shape := ⟨1, ![2000000]⟩
abbrev S128x32 : Shape := ⟨2, ![128, 32]⟩
abbrev S32 : Shape := ⟨1, ![32]⟩
abbrev S32x1 : Shape := ⟨2, ![32, 1]⟩
abbrev S1 : Shape := ⟨1, ![1]⟩
abbrev S128x64 : Shape := ⟨2, ![128, 64]⟩
abbrev S200000x64 : Shape := ⟨2, ![200000, 64]⟩
abbrev S8000x128 : Shape := ⟨2, ![8000, 128]⟩
abbrev S8000x64 : Shape := ⟨2, ![8000, 64]⟩
abbrev S200000x32 : Shape := ⟨2, ![200000, 32]⟩
abbrev S1x6400000 : Shape := ⟨2, ![1, 6400000]⟩
abbrev S6400000 : Shape := ⟨1, ![6400000]⟩
abbrev S_ : Shape := ⟨0, ![]⟩
abbrev S200000 : Shape := ⟨1, ![200000]⟩
abbrev S6400000x1 : Shape := ⟨2, ![6400000, 1]⟩
abbrev S6400000x32 : Shape := ⟨2, ![6400000, 32]⟩
abbrev S200000x1 : Shape := ⟨2, ![200000, 1]⟩
abbrev S1x32 : Shape := ⟨2, ![1, 32]⟩
abbrev S2000000x1 : Shape := ⟨2, ![2000000, 1]⟩
abbrev S2000000x128 : Shape := ⟨2, ![2000000, 128]⟩
abbrev S1x1 : Shape := ⟨2, ![1, 1]⟩
abbrev S8000x32 : Shape := ⟨2, ![8000, 32]⟩
abbrev S8000x1 : Shape := ⟨2, ![8000, 1]⟩

abbrev nBuf : Space → Nat
  | .hbm => 101
  | .vmem => 17
  | .smem => 0
  | _ => 0

abbrev bufTy : (tb : Table) → Fin (tcTables nBuf tb) → BufTy
  | .hbm, ⟨0, _⟩ => ⟨S200000x128, .f32⟩
  | .hbm, ⟨1, _⟩ => ⟨S100000x128, .f32⟩
  | .hbm, ⟨2, _⟩ => ⟨S2x6400000, .i32⟩
  | .hbm, ⟨3, _⟩ => ⟨S2000000, .i32⟩
  | .hbm, ⟨4, _⟩ => ⟨S2000000, .i32⟩
  | .hbm, ⟨5, _⟩ => ⟨S128x32, .f32⟩
  | .hbm, ⟨6, _⟩ => ⟨S32, .f32⟩
  | .hbm, ⟨7, _⟩ => ⟨S128x32, .f32⟩
  | .hbm, ⟨8, _⟩ => ⟨S32, .f32⟩
  | .hbm, ⟨9, _⟩ => ⟨S128x32, .f32⟩
  | .hbm, ⟨10, _⟩ => ⟨S32x1, .f32⟩
  | .hbm, ⟨11, _⟩ => ⟨S1, .f32⟩
  | .hbm, ⟨12, _⟩ => ⟨S128x64, .f32⟩
  | .hbm, ⟨13, _⟩ => ⟨S200000x64, .f32⟩
  | .hbm, ⟨14, _⟩ => ⟨S200000x32, .f32⟩
  | .hbm, ⟨15, _⟩ => ⟨S200000x32, .f32⟩
  | .hbm, ⟨16, _⟩ => ⟨S1x6400000, .i32⟩
  | .hbm, ⟨17, _⟩ => ⟨S6400000, .i32⟩
  | .hbm, ⟨18, _⟩ => ⟨S1x6400000, .i32⟩
  | .hbm, ⟨19, _⟩ => ⟨S6400000, .i32⟩
  | .hbm, ⟨20, _⟩ => ⟨S_, .f32⟩
  | .hbm, ⟨21, _⟩ => ⟨S6400000, .f32⟩
  | .hbm, ⟨22, _⟩ => ⟨S_, .f32⟩
  | .hbm, ⟨23, _⟩ => ⟨S200000, .f32⟩
  | .hbm, ⟨24, _⟩ => ⟨S6400000x1, .i32⟩
  | .hbm, ⟨25, _⟩ => ⟨S200000, .f32⟩
  | .hbm, ⟨26, _⟩ => ⟨S_, .f32⟩
  | .hbm, ⟨27, _⟩ => ⟨S200000, .f32⟩
  | .hbm, ⟨28, _⟩ => ⟨S200000, .f32⟩
  | .hbm, ⟨29, _⟩ => ⟨S200000, .f32⟩
  | .hbm, ⟨30, _⟩ => ⟨S_, .i32⟩
  | .hbm, ⟨31, _⟩ => ⟨S6400000, .i32⟩
  | .hbm, ⟨32, _⟩ => ⟨S6400000, .i1⟩
  | .hbm, ⟨33, _⟩ => ⟨S_, .i32⟩
  | .hbm, ⟨34, _⟩ => ⟨S6400000, .i32⟩
  | .hbm, ⟨35, _⟩ => ⟨S6400000, .i32⟩
  | .hbm, ⟨36, _⟩ => ⟨S6400000, .i32⟩
  | .hbm, ⟨37, _⟩ => ⟨S6400000x1, .i32⟩
  | .hbm, ⟨38, _⟩ => ⟨S6400000x32, .f32⟩
  | .hbm, ⟨39, _⟩ => ⟨S_, .i32⟩
  | .hbm, ⟨40, _⟩ => ⟨S6400000, .i32⟩
  | .hbm, ⟨41, _⟩ => ⟨S6400000, .i1⟩
  | .hbm, ⟨42, _⟩ => ⟨S_, .i32⟩
  | .hbm, ⟨43, _⟩ => ⟨S6400000, .i32⟩
  | .hbm, ⟨44, _⟩ => ⟨S6400000, .i32⟩
  | .hbm, ⟨45, _⟩ => ⟨S6400000, .i32⟩
  | .hbm, ⟨46, _⟩ => ⟨S6400000x1, .i32⟩
  | .hbm, ⟨47, _⟩ => ⟨S6400000, .f32⟩
  | .hbm, ⟨48, _⟩ => ⟨S_, .i32⟩
  | .hbm, ⟨49, _⟩ => ⟨S6400000, .i32⟩
  | .hbm, ⟨50, _⟩ => ⟨S6400000, .i1⟩
  | .hbm, ⟨51, _⟩ => ⟨S_, .i32⟩
  | .hbm, ⟨52, _⟩ => ⟨S6400000, .i32⟩
  | .hbm, ⟨53, _⟩ => ⟨S6400000, .i32⟩
  | .hbm, ⟨54, _⟩ => ⟨S6400000, .i32⟩
  | .hbm, ⟨55, _⟩ => ⟨S6400000x1, .i32⟩
  | .hbm, ⟨56, _⟩ => ⟨S6400000, .f32⟩
  | .hbm, ⟨57, _⟩ => ⟨S6400000, .f32⟩
  | .hbm, ⟨58, _⟩ => ⟨S6400000x1, .f32⟩
  | .hbm, ⟨59, _⟩ => ⟨S6400000x32, .f32⟩
  | .hbm, ⟨60, _⟩ => ⟨S6400000x32, .f32⟩
  | .hbm, ⟨61, _⟩ => ⟨S_, .f32⟩
  | .hbm, ⟨62, _⟩ => ⟨S200000x32, .f32⟩
  | .hbm, ⟨63, _⟩ => ⟨S6400000x1, .i32⟩
  | .hbm, ⟨64, _⟩ => ⟨S200000x32, .f32⟩
  | .hbm, ⟨65, _⟩ => ⟨S200000, .f32⟩
  | .hbm, ⟨66, _⟩ => ⟨S200000x1, .f32⟩
  | .hbm, ⟨67, _⟩ => ⟨S200000x32, .f32⟩
  | .hbm, ⟨68, _⟩ => ⟨S200000x32, .f32⟩
  | .hbm, ⟨69, _⟩ => ⟨S200000x32, .f32⟩
  | .hbm, ⟨70, _⟩ => ⟨S1x32, .f32⟩
  | .hbm, ⟨71, _⟩ => ⟨S200000x32, .f32⟩
  | .hbm, ⟨72, _⟩ => ⟨S200000x32, .f32⟩
  | .hbm, ⟨73, _⟩ => ⟨S_, .f32⟩
  | .hbm, ⟨74, _⟩ => ⟨S2000000, .f32⟩
  | .hbm, ⟨75, _⟩ => ⟨S_, .f32⟩
  | .hbm, ⟨76, _⟩ => ⟨S200000, .f32⟩
  | .hbm, ⟨77, _⟩ => ⟨S2000000x1, .i32⟩
  | .hbm, ⟨78, _⟩ => ⟨S200000, .f32⟩
  | .hbm, ⟨79, _⟩ => ⟨S_, .i32⟩
  | .hbm, ⟨80, _⟩ => ⟨S2000000, .i32⟩
  | .hbm, ⟨81, _⟩ => ⟨S2000000, .i1⟩
  | .hbm, ⟨82, _⟩ => ⟨S_, .i32⟩
  | .hbm, ⟨83, _⟩ => ⟨S2000000, .i32⟩
  | .hbm, ⟨84, _⟩ => ⟨S2000000, .i32⟩
  | .hbm, ⟨85, _⟩ => ⟨S2000000, .i32⟩
  | .hbm, ⟨86, _⟩ => ⟨S2000000x1, .i32⟩
  | .hbm, ⟨87, _⟩ => ⟨S2000000x128, .f32⟩
  | .hbm, ⟨88, _⟩ => ⟨S_, .f32⟩
  | .hbm, ⟨89, _⟩ => ⟨S200000x128, .f32⟩
  | .hbm, ⟨90, _⟩ => ⟨S2000000x1, .i32⟩
  | .hbm, ⟨91, _⟩ => ⟨S200000x128, .f32⟩
  | .hbm, ⟨92, _⟩ => ⟨S_, .f32⟩
  | .hbm, ⟨93, _⟩ => ⟨S200000, .f32⟩
  | .hbm, ⟨94, _⟩ => ⟨S200000, .f32⟩
  | .hbm, ⟨95, _⟩ => ⟨S200000x1, .f32⟩
  | .hbm, ⟨96, _⟩ => ⟨S200000x128, .f32⟩
  | .hbm, ⟨97, _⟩ => ⟨S200000x128, .f32⟩
  | .hbm, ⟨98, _⟩ => ⟨S1x32, .f32⟩
  | .hbm, ⟨99, _⟩ => ⟨S1x1, .f32⟩
  | .hbm, ⟨100, _⟩ => ⟨S200000x1, .f32⟩
  | .local _ .vmem, ⟨0, _⟩ => ⟨S8000x128, .f32⟩
  | .local _ .vmem, ⟨1, _⟩ => ⟨S8000x128, .f32⟩
  | .local _ .vmem, ⟨2, _⟩ => ⟨S128x64, .f32⟩
  | .local _ .vmem, ⟨3, _⟩ => ⟨S8000x64, .f32⟩
  | .local _ .vmem, ⟨4, _⟩ => ⟨S8000x64, .f32⟩
  | .local _ .vmem, ⟨5, _⟩ => ⟨S8000x128, .f32⟩
  | .local _ .vmem, ⟨6, _⟩ => ⟨S8000x128, .f32⟩
  | .local _ .vmem, ⟨7, _⟩ => ⟨S8000x32, .f32⟩
  | .local _ .vmem, ⟨8, _⟩ => ⟨S8000x32, .f32⟩
  | .local _ .vmem, ⟨9, _⟩ => ⟨S8000x32, .f32⟩
  | .local _ .vmem, ⟨10, _⟩ => ⟨S8000x32, .f32⟩
  | .local _ .vmem, ⟨11, _⟩ => ⟨S128x32, .f32⟩
  | .local _ .vmem, ⟨12, _⟩ => ⟨S1x32, .f32⟩
  | .local _ .vmem, ⟨13, _⟩ => ⟨S32x1, .f32⟩
  | .local _ .vmem, ⟨14, _⟩ => ⟨S1x1, .f32⟩
  | .local _ .vmem, ⟨15, _⟩ => ⟨S8000x1, .f32⟩
  | .local _ .vmem, ⟨16, _⟩ => ⟨S8000x1, .f32⟩
  | _, _ => ⟨S200000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_2 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_3 : Ref sig .tc := ⟨.hbm, 39, rfl⟩
abbrev main_v22 : Ref sig .tc := ⟨.hbm, 40, rfl⟩
abbrev main_v23 : Ref sig .tc := ⟨.hbm, 41, rfl⟩
abbrev main_c_4 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_c_5 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_7 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_8 : Ref sig .tc := ⟨.hbm, 73, rfl⟩
abbrev main_v51 : Ref sig .tc := ⟨.hbm, 74, rfl⟩
abbrev main_cst_9 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_c_10 : Ref sig .tc := ⟨.hbm, 79, rfl⟩
abbrev main_v55 : Ref sig .tc := ⟨.hbm, 80, rfl⟩
abbrev main_v56 : Ref sig .tc := ⟨.hbm, 81, rfl⟩
abbrev main_c_11 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_12 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_cst_13 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg7_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem7_1 : DmaSem sig := 16

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S32x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S8000x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  concatenates_S128x32_S128x32_S128x64_d1 : Shape.Concatenates [S128x32, S128x32] S128x64 1
  inb_S8000x128_S8000x128_0_0 : ∀ a, (![0, 0] : Fin 2 → Nat) a + S8000x128.size a ≤ S8000x128.size a
  h_S8000x128 : 0 < S8000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S8000x64_S8000x64_0_0 : ∀ a, (![0, 0] : Fin 2 → Nat) a + S8000x64.size a ≤ S8000x64.size a
  h_S8000x64 : 0 < S8000x64.numel
  slices_S200000x64_S200000x32_0_0 : S200000x64.Slices ![0, 0] S200000x32
  slices_S200000x64_S200000x32_0_32 : S200000x64.Slices ![0, 32] S200000x32
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  bcast_S_S6400000 : S_.BroadcastsInDim S6400000 (![] : Fin 0 → Fin S6400000.rank)
  bcast_S_S200000 : S_.BroadcastsInDim S200000 (![] : Fin 0 → Fin S200000.rank)
  bcast_S6400000_S6400000x1_0 : S6400000.BroadcastsInDim S6400000x1 (![0] : Fin 1 → Fin S6400000x1.rank)
  bcast_S6400000x1_S6400000x32_0_1 : S6400000x1.BroadcastsInDim S6400000x32 (![0, 1] : Fin 2 → Fin S6400000x32.rank)
  bcast_S_S200000x32 : S_.BroadcastsInDim S200000x32 (![] : Fin 0 → Fin S200000x32.rank)
  bcast_S200000_S200000x1_0 : S200000.BroadcastsInDim S200000x1 (![0] : Fin 1 → Fin S200000x1.rank)
  bcast_S200000x1_S200000x32_0_1 : S200000x1.BroadcastsInDim S200000x32 (![0, 1] : Fin 2 → Fin S200000x32.rank)
  bcast_S32_S1x32_1 : S32.BroadcastsInDim S1x32 (![1] : Fin 1 → Fin S1x32.rank)
  bcast_S1x32_S200000x32_0_1 : S1x32.BroadcastsInDim S200000x32 (![0, 1] : Fin 2 → Fin S200000x32.rank)
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S_S200000x128 : S_.BroadcastsInDim S200000x128 (![] : Fin 0 → Fin S200000x128.rank)
  bcast_S200000x1_S200000x128_0_1 : S200000x1.BroadcastsInDim S200000x128 (![0, 1] : Fin 2 → Fin S200000x128.rank)
  shapeCasts_S32_S1x32 : S32.ShapeCasts S1x32
  shapeCasts_S1_S1x1 : S1.ShapeCasts S1x1
  shapeCasts_S8000x128_S8000x128 : S8000x128.ShapeCasts S8000x128
  inb_S128x32_S128x32_0_0 : ∀ a, (![0, 0] : Fin 2 → Nat) a + S128x32.size a ≤ S128x32.size a
  h_S128x32 : 0 < S128x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S8000x32 : S1x32.Broadcasts S8000x32
  inb_S8000x32_S8000x32_0_0 : ∀ a, (![0, 0] : Fin 2 → Nat) a + S8000x32.size a ≤ S8000x32.size a
  h_S8000x32 : 0 < S8000x32.numel
  shapeCasts_S8000x32_S8000x32 : S8000x32.ShapeCasts S8000x32
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S8000x1 : S1x1.Broadcasts S8000x1
  inb_S8000x1_S8000x1_0_0 : ∀ a, (![0, 0] : Fin 2 → Nat) a + S8000x1.size a ≤ S8000x1.size a
  h_S8000x1 : 0 < S8000x1.numel
  dot_S8000x128_S128x64_S8000x64_1_0_0_1_n_n_wf : DotDims.WF S8000x128 S128x64 S8000x64 [1] [0] [0] [1] [] []
  scatter_S200000_S6400000x1_S6400000_n_0_0_1_wf : ScatterDims.WF S200000 S6400000x1 S6400000 [] [0] [0] 1
  gather_S200000x32_S6400000x1_S6400000x32_1_0_n_n_0_1_132_wf : GatherDims.WF S200000x32 S6400000x1 S6400000x32 [1] [0] [] [0] [] 1 ![1, 32]
  gather_S200000_S6400000x1_S6400000_n_0_n_n_0_1_1_wf : GatherDims.WF S200000 S6400000x1 S6400000 [] [0] [] [0] [] 1 ![1]
  scatter_S200000x32_S6400000x1_S6400000x32_1_0_0_1_wf : ScatterDims.WF S200000x32 S6400000x1 S6400000x32 [1] [0] [0] 1
  scatter_S200000_S2000000x1_S2000000_n_0_0_1_wf : ScatterDims.WF S200000 S2000000x1 S2000000 [] [0] [0] 1
  gather_S100000x128_S2000000x1_S2000000x128_1_0_n_n_0_1_1128_wf : GatherDims.WF S100000x128 S2000000x1 S2000000x128 [1] [0] [] [0] [] 1 ![1, 128]
  scatter_S200000x128_S2000000x1_S2000000x128_1_0_0_1_wf : ScatterDims.WF S200000x128 S2000000x1 S2000000x128 [1] [0] [0] 1
  dot_S8000x128_S128x32_S8000x32_1_0_0_1_n_n_wf : DotDims.WF S8000x128 S128x32 S8000x32 [1] [0] [0] [1] [] []
  dot_S8000x32_S32x1_S8000x1_1_0_0_1_n_n_wf : DotDims.WF S8000x32 S32x1 S8000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S200000x128.size a
  hwx0_0 : ∀ i : grid0.Coords, EltTy.bits .f32 = 32 ∨ (Rect.block (s := S200000x128) S8000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x64.size a ≤ S200000x64.size a
  hwx0_2 : ∀ i : grid0.Coords, EltTy.bits .f32 = 32 ∨ (Rect.block (s := S200000x64) S8000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x128.size a ≤ S200000x128.size a
  hwx1_0 : ∀ i : grid1.Coords, EltTy.bits .f32 = 32 ∨ (Rect.block (s := S200000x128) S8000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x32.size a ≤ S200000x32.size a
  hwx1_1 : ∀ i : grid1.Coords, EltTy.bits .f32 = 32 ∨ (Rect.block (s := S200000x32) S8000x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8000x32.size a ≤ S200000x32.size a
  hwx1_2 : ∀ i : grid1.Coords, EltTy.bits .f32 = 32 ∨ (Rect.block (s := S200000x32) S8000x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x32.size a ≤ S128x32.size a
  hwx1_3 : ∀ i : grid1.Coords, EltTy.bits .f32 = 32 ∨ (Rect.block (s := S128x32) S128x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x32.size a ≤ S1x32.size a
  hwx1_4 : ∀ i : grid1.Coords, EltTy.bits .f32 = 32 ∨ (Rect.block (s := S1x32) S1x32.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S32x1.size a ≤ S32x1.size a
  hwx1_5 : ∀ i : grid1.Coords, EltTy.bits .f32 = 32 ∨ (Rect.block (s := S32x1) S32x1.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x1.size a ≤ S1x1.size a
  hwx1_6 : ∀ i : grid1.Coords, EltTy.bits .f32 = 32 ∨ (Rect.block (s := S1x1) S1x1.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S8000x1.size a ≤ S200000x1.size a
  hwx1_7 : ∀ i : grid1.Coords, EltTy.bits .f32 = 32 ∨ (Rect.block (s := S200000x1) S8000x1.size (cc1_transform_7 i) (hinb1_7 i)).WholeWords (EltTy.packing .f32)

variable [Facts₀]

def dot_S8000x128_S128x64_S8000x64_1_0_0_1_n_n : DotDims S8000x128 S128x64 S8000x64 where
  lhsContracting := [1]
  rhsContracting := [0]
  lhsNonContracting := [0]
  rhsNonContracting := [1]
  lhsBatch := []
  rhsBatch := []
  wf := dot_S8000x128_S128x64_S8000x64_1_0_0_1_n_n_wf
def scatter_S200000_S6400000x1_S6400000_n_0_0_1 : ScatterDims S200000 S6400000x1 S6400000 where
  updateWindowDims := []
  insertedWindowDims := [0]
  scatterDimsToOperandDims := [0]
  indexVectorDim := 1
  wf := scatter_S200000_S6400000x1_S6400000_n_0_0_1_wf
def gather_S200000x32_S6400000x1_S6400000x32_1_0_n_n_0_1_132 : GatherDims S200000x32 S6400000x1 S6400000x32 where
  offsetDims := [1]
  collapsedSliceDims := [0]
  operandBatchingDims := []
  startIndicesBatchingDims := []
  startIndexMap := [0]
  indexVectorDim := 1
  sliceSizes := ![1, 32]
  wf := gather_S200000x32_S6400000x1_S6400000x32_1_0_n_n_0_1_132_wf
def gather_S200000_S6400000x1_S6400000_n_0_n_n_0_1_1 : GatherDims S200000 S6400000x1 S6400000 where
  offsetDims := []
  collapsedSliceDims := [0]
  operandBatchingDims := []
  startIndicesBatchingDims := []
  startIndexMap := [0]
  indexVectorDim := 1
  sliceSizes := ![1]
  wf := gather_S200000_S6400000x1_S6400000_n_0_n_n_0_1_1_wf
def scatter_S200000x32_S6400000x1_S6400000x32_1_0_0_1 : ScatterDims S200000x32 S6400000x1 S6400000x32 where
  updateWindowDims := [1]
  insertedWindowDims := [0]
  scatterDimsToOperandDims := [0]
  indexVectorDim := 1
  wf := scatter_S200000x32_S6400000x1_S6400000x32_1_0_0_1_wf
def scatter_S200000_S2000000x1_S2000000_n_0_0_1 : ScatterDims S200000 S2000000x1 S2000000 where
  updateWindowDims := []
  insertedWindowDims := [0]
  scatterDimsToOperandDims := [0]
  indexVectorDim := 1
  wf := scatter_S200000_S2000000x1_S2000000_n_0_0_1_wf
def gather_S100000x128_S2000000x1_S2000000x128_1_0_n_n_0_1_1128 : GatherDims S100000x128 S2000000x1 S2000000x128 where
  offsetDims := [1]
  collapsedSliceDims := [0]
  operandBatchingDims := []
  startIndicesBatchingDims := []
  startIndexMap := [0]
  indexVectorDim := 1
  sliceSizes := ![1, 128]
  wf := gather_S100000x128_S2000000x1_S2000000x128_1_0_n_n_0_1_1128_wf
def scatter_S200000x128_S2000000x1_S2000000x128_1_0_0_1 : ScatterDims S200000x128 S2000000x1 S2000000x128 where
  updateWindowDims := [1]
  insertedWindowDims := [0]
  scatterDimsToOperandDims := [0]
  indexVectorDim := 1
  wf := scatter_S200000x128_S2000000x1_S2000000x128_1_0_0_1_wf
def dot_S8000x128_S128x32_S8000x32_1_0_0_1_n_n : DotDims S8000x128 S128x32 S8000x32 where
  lhsContracting := [1]
  rhsContracting := [0]
  lhsNonContracting := [0]
  rhsNonContracting := [1]
  lhsBatch := []
  rhsBatch := []
  wf := dot_S8000x128_S128x32_S8000x32_1_0_0_1_n_n_wf
def dot_S8000x32_S32x1_S8000x1_1_0_0_1_n_n : DotDims S8000x32 S32x1 S8000x1 where
  lhsContracting := [1]
  rhsContracting := [0]
  lhsNonContracting := [0]
  rhsNonContracting := [1]
  lhsBatch := []
  rhsBatch := []
  wf := dot_S8000x32_S32x1_S8000x1_1_0_0_1_n_n_wf

abbrev win0_0 : Pipeline.Window sig grid0 :=
  Pipeline.Window.ofSpec (Memref.whole main_arg0) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S8000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v69) S8000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S8000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v50) S8000x32.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v70) S1x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg10) S32x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v71) S1x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v72) S8000x1.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S200000x128 : Shape := ⟨2, ![200000, 128]⟩
abbrev S100000x128 : Shape := ⟨2, ![100000, 128]⟩
abbrev S2x6400000 : Shape := ⟨2, ![2, 6400000]⟩
abbrev S2000000 : Shape := ⟨1, ![2000000]⟩
abbrev S128x32 : Shape := ⟨2, ![128, 32]⟩
abbrev S32 : Shape := ⟨1, ![32]⟩
abbrev S32x1 : Shape := ⟨2, ![32, 1]⟩
abbrev S1 : Shape := ⟨1, ![1]⟩
abbrev S1x6400000 : Shape := ⟨2, ![1, 6400000]⟩
abbrev S6400000 : Shape := ⟨1, ![6400000]⟩
abbrev S200000x32 : Shape := ⟨2, ![200000, 32]⟩
abbrev S_ : Shape := ⟨0, ![]⟩
abbrev S200000 : Shape := ⟨1, ![200000]⟩
abbrev S6400000x1 : Shape := ⟨2, ![6400000, 1]⟩
abbrev S6400000x32 : Shape := ⟨2, ![6400000, 32]⟩
abbrev S200000x1 : Shape := ⟨2, ![200000, 1]⟩
abbrev S1x32 : Shape := ⟨2, ![1, 32]⟩
abbrev S2000000x1 : Shape := ⟨2, ![2000000, 1]⟩
abbrev S2000000x128 : Shape := ⟨2, ![2000000, 128]⟩
abbrev S1x1 : Shape := ⟨2, ![1, 1]⟩

abbrev nBuf : Space → Nat
  | .hbm => 106
  | .vmem => 0
  | .smem => 0
  | _ => 0

abbrev bufTy : (tb : Table) → Fin (tcTables nBuf tb) → BufTy
  | .hbm, ⟨0, _⟩ => ⟨S200000x128, .f32⟩
  | .hbm, ⟨1, _⟩ => ⟨S100000x128, .f32⟩
  | .hbm, ⟨2, _⟩ => ⟨S2x6400000, .i32⟩
  | .hbm, ⟨3, _⟩ => ⟨S2000000, .i32⟩
  | .hbm, ⟨4, _⟩ => ⟨S2000000, .i32⟩
  | .hbm, ⟨5, _⟩ => ⟨S128x32, .f32⟩
  | .hbm, ⟨6, _⟩ => ⟨S32, .f32⟩
  | .hbm, ⟨7, _⟩ => ⟨S128x32, .f32⟩
  | .hbm, ⟨8, _⟩ => ⟨S32, .f32⟩
  | .hbm, ⟨9, _⟩ => ⟨S128x32, .f32⟩
  | .hbm, ⟨10, _⟩ => ⟨S32x1, .f32⟩
  | .hbm, ⟨11, _⟩ => ⟨S1, .f32⟩
  | .hbm, ⟨12, _⟩ => ⟨S1x6400000, .i32⟩
  | .hbm, ⟨13, _⟩ => ⟨S6400000, .i32⟩
  | .hbm, ⟨14, _⟩ => ⟨S1x6400000, .i32⟩
  | .hbm, ⟨15, _⟩ => ⟨S6400000, .i32⟩
  | .hbm, ⟨16, _⟩ => ⟨S200000x32, .f32⟩
  | .hbm, ⟨17, _⟩ => ⟨S_, .f32⟩
  | .hbm, ⟨18, _⟩ => ⟨S6400000, .f32⟩
  | .hbm, ⟨19, _⟩ => ⟨S_, .f32⟩
  | .hbm, ⟨20, _⟩ => ⟨S200000, .f32⟩
  | .hbm, ⟨21, _⟩ => ⟨S6400000x1, .i32⟩
  | .hbm, ⟨22, _⟩ => ⟨S200000, .f32⟩
  | .hbm, ⟨23, _⟩ => ⟨S_, .f32⟩
  | .hbm, ⟨24, _⟩ => ⟨S200000, .f32⟩
  | .hbm, ⟨25, _⟩ => ⟨S200000, .f32⟩
  | .hbm, ⟨26, _⟩ => ⟨S200000, .f32⟩
  | .hbm, ⟨27, _⟩ => ⟨S_, .i32⟩
  | .hbm, ⟨28, _⟩ => ⟨S6400000, .i32⟩
  | .hbm, ⟨29, _⟩ => ⟨S6400000, .i1⟩
  | .hbm, ⟨30, _⟩ => ⟨S_, .i32⟩
  | .hbm, ⟨31, _⟩ => ⟨S6400000, .i32⟩
  | .hbm, ⟨32, _⟩ => ⟨S6400000, .i32⟩
  | .hbm, ⟨33, _⟩ => ⟨S6400000, .i32⟩
  | .hbm, ⟨34, _⟩ => ⟨S6400000x1, .i32⟩
  | .hbm, ⟨35, _⟩ => ⟨S6400000x32, .f32⟩
  | .hbm, ⟨36, _⟩ => ⟨S_, .i32⟩
  | .hbm, ⟨37, _⟩ => ⟨S6400000, .i32⟩
  | .hbm, ⟨38, _⟩ => ⟨S6400000, .i1⟩
  | .hbm, ⟨39, _⟩ => ⟨S_, .i32⟩
  | .hbm, ⟨40, _⟩ => ⟨S6400000, .i32⟩
  | .hbm, ⟨41, _⟩ => ⟨S6400000, .i32⟩
  | .hbm, ⟨42, _⟩ => ⟨S6400000, .i32⟩
  | .hbm, ⟨43, _⟩ => ⟨S6400000x1, .i32⟩
  | .hbm, ⟨44, _⟩ => ⟨S6400000, .f32⟩
  | .hbm, ⟨45, _⟩ => ⟨S_, .i32⟩
  | .hbm, ⟨46, _⟩ => ⟨S6400000, .i32⟩
  | .hbm, ⟨47, _⟩ => ⟨S6400000, .i1⟩
  | .hbm, ⟨48, _⟩ => ⟨S_, .i32⟩
  | .hbm, ⟨49, _⟩ => ⟨S6400000, .i32⟩
  | .hbm, ⟨50, _⟩ => ⟨S6400000, .i32⟩
  | .hbm, ⟨51, _⟩ => ⟨S6400000, .i32⟩
  | .hbm, ⟨52, _⟩ => ⟨S6400000x1, .i32⟩
  | .hbm, ⟨53, _⟩ => ⟨S6400000, .f32⟩
  | .hbm, ⟨54, _⟩ => ⟨S6400000, .f32⟩
  | .hbm, ⟨55, _⟩ => ⟨S6400000x1, .f32⟩
  | .hbm, ⟨56, _⟩ => ⟨S6400000x32, .f32⟩
  | .hbm, ⟨57, _⟩ => ⟨S6400000x32, .f32⟩
  | .hbm, ⟨58, _⟩ => ⟨S_, .f32⟩
  | .hbm, ⟨59, _⟩ => ⟨S200000x32, .f32⟩
  | .hbm, ⟨60, _⟩ => ⟨S6400000x1, .i32⟩
  | .hbm, ⟨61, _⟩ => ⟨S200000x32, .f32⟩
  | .hbm, ⟨62, _⟩ => ⟨S200000, .f32⟩
  | .hbm, ⟨63, _⟩ => ⟨S200000x1, .f32⟩
  | .hbm, ⟨64, _⟩ => ⟨S200000x32, .f32⟩
  | .hbm, ⟨65, _⟩ => ⟨S200000x32, .f32⟩
  | .hbm, ⟨66, _⟩ => ⟨S200000x32, .f32⟩
  | .hbm, ⟨67, _⟩ => ⟨S1x32, .f32⟩
  | .hbm, ⟨68, _⟩ => ⟨S200000x32, .f32⟩
  | .hbm, ⟨69, _⟩ => ⟨S200000x32, .f32⟩
  | .hbm, ⟨70, _⟩ => ⟨S_, .f32⟩
  | .hbm, ⟨71, _⟩ => ⟨S2000000, .f32⟩
  | .hbm, ⟨72, _⟩ => ⟨S_, .f32⟩
  | .hbm, ⟨73, _⟩ => ⟨S200000, .f32⟩
  | .hbm, ⟨74, _⟩ => ⟨S2000000x1, .i32⟩
  | .hbm, ⟨75, _⟩ => ⟨S200000, .f32⟩
  | .hbm, ⟨76, _⟩ => ⟨S_, .i32⟩
  | .hbm, ⟨77, _⟩ => ⟨S2000000, .i32⟩
  | .hbm, ⟨78, _⟩ => ⟨S2000000, .i1⟩
  | .hbm, ⟨79, _⟩ => ⟨S_, .i32⟩
  | .hbm, ⟨80, _⟩ => ⟨S2000000, .i32⟩
  | .hbm, ⟨81, _⟩ => ⟨S2000000, .i32⟩
  | .hbm, ⟨82, _⟩ => ⟨S2000000, .i32⟩
  | .hbm, ⟨83, _⟩ => ⟨S2000000x1, .i32⟩
  | .hbm, ⟨84, _⟩ => ⟨S2000000x128, .f32⟩
  | .hbm, ⟨85, _⟩ => ⟨S_, .f32⟩
  | .hbm, ⟨86, _⟩ => ⟨S200000x128, .f32⟩
  | .hbm, ⟨87, _⟩ => ⟨S2000000x1, .i32⟩
  | .hbm, ⟨88, _⟩ => ⟨S200000x128, .f32⟩
  | .hbm, ⟨89, _⟩ => ⟨S_, .f32⟩
  | .hbm, ⟨90, _⟩ => ⟨S200000, .f32⟩
  | .hbm, ⟨91, _⟩ => ⟨S200000, .f32⟩
  | .hbm, ⟨92, _⟩ => ⟨S200000x1, .f32⟩
  | .hbm, ⟨93, _⟩ => ⟨S200000x128, .f32⟩
  | .hbm, ⟨94, _⟩ => ⟨S200000x128, .f32⟩
  | .hbm, ⟨95, _⟩ => ⟨S200000x32, .f32⟩
  | .hbm, ⟨96, _⟩ => ⟨S1x32, .f32⟩
  | .hbm, ⟨97, _⟩ => ⟨S200000x32, .f32⟩
  | .hbm, ⟨98, _⟩ => ⟨S200000x32, .f32⟩
  | .hbm, ⟨99, _⟩ => ⟨S200000x32, .f32⟩
  | .hbm, ⟨100, _⟩ => ⟨S200000x32, .f32⟩
  | .hbm, ⟨101, _⟩ => ⟨S200000x32, .f32⟩
  | .hbm, ⟨102, _⟩ => ⟨S200000x1, .f32⟩
  | .hbm, ⟨103, _⟩ => ⟨S1x1, .f32⟩
  | .hbm, ⟨104, _⟩ => ⟨S200000x1, .f32⟩
  | .hbm, ⟨105, _⟩ => ⟨S200000x1, .f32⟩
  | _, _ => ⟨S200000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_1 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c : Ref sig .tc := ⟨.hbm, 27, rfl⟩
abbrev main_v12 : Ref sig .tc := ⟨.hbm, 28, rfl⟩
abbrev main_v13 : Ref sig .tc := ⟨.hbm, 29, rfl⟩
abbrev main_c_2 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c_3 : Ref sig .tc := ⟨.hbm, 36, rfl⟩
abbrev main_v19 : Ref sig .tc := ⟨.hbm, 37, rfl⟩
abbrev main_v20 : Ref sig .tc := ⟨.hbm, 38, rfl⟩
abbrev main_c_4 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_c_5 : Ref sig .tc := ⟨.hbm, 45, rfl⟩
abbrev main_v26 : Ref sig .tc := ⟨.hbm, 46, rfl⟩
abbrev main_v27 : Ref sig .tc := ⟨.hbm, 47, rfl⟩
abbrev main_c_6 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_7 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_8 : Ref sig .tc := ⟨.hbm, 70, rfl⟩
abbrev main_v48 : Ref sig .tc := ⟨.hbm, 71, rfl⟩
abbrev main_cst_9 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_c_10 : Ref sig .tc := ⟨.hbm, 76, rfl⟩
abbrev main_v52 : Ref sig .tc := ⟨.hbm, 77, rfl⟩
abbrev main_v53 : Ref sig .tc := ⟨.hbm, 78, rfl⟩
abbrev main_c_11 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_12 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_13 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩

abbrev nD : Nat := 1
abbrev τ : Topo := Topo.v7x

variable {F : FTy → Type} [FloatOps F]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  bcast_S_S6400000 : S_.BroadcastsInDim S6400000 (![] : Fin 0 → Fin S6400000.rank)
  bcast_S_S200000 : S_.BroadcastsInDim S200000 (![] : Fin 0 → Fin S200000.rank)
  bcast_S6400000_S6400000x1_0 : S6400000.BroadcastsInDim S6400000x1 (![0] : Fin 1 → Fin S6400000x1.rank)
  bcast_S6400000x1_S6400000x32_0_1 : S6400000x1.BroadcastsInDim S6400000x32 (![0, 1] : Fin 2 → Fin S6400000x32.rank)
  bcast_S_S200000x32 : S_.BroadcastsInDim S200000x32 (![] : Fin 0 → Fin S200000x32.rank)
  bcast_S200000_S200000x1_0 : S200000.BroadcastsInDim S200000x1 (![0] : Fin 1 → Fin S200000x1.rank)
  bcast_S200000x1_S200000x32_0_1 : S200000x1.BroadcastsInDim S200000x32 (![0, 1] : Fin 2 → Fin S200000x32.rank)
  bcast_S32_S1x32_1 : S32.BroadcastsInDim S1x32 (![1] : Fin 1 → Fin S1x32.rank)
  bcast_S1x32_S200000x32_0_1 : S1x32.BroadcastsInDim S200000x32 (![0, 1] : Fin 2 → Fin S200000x32.rank)
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S_S200000x128 : S_.BroadcastsInDim S200000x128 (![] : Fin 0 → Fin S200000x128.rank)
  bcast_S200000x1_S200000x128_0_1 : S200000x1.BroadcastsInDim S200000x128 (![0, 1] : Fin 2 → Fin S200000x128.rank)
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  dot_S200000x128_S128x32_S200000x32_1_0_0_1_n_n_wf : DotDims.WF S200000x128 S128x32 S200000x32 [1] [0] [0] [1] [] []
  scatter_S200000_S6400000x1_S6400000_n_0_0_1_wf : ScatterDims.WF S200000 S6400000x1 S6400000 [] [0] [0] 1
  gather_S200000x32_S6400000x1_S6400000x32_1_0_n_n_0_1_132_wf : GatherDims.WF S200000x32 S6400000x1 S6400000x32 [1] [0] [] [0] [] 1 ![1, 32]
  gather_S200000_S6400000x1_S6400000_n_0_n_n_0_1_1_wf : GatherDims.WF S200000 S6400000x1 S6400000 [] [0] [] [0] [] 1 ![1]
  scatter_S200000x32_S6400000x1_S6400000x32_1_0_0_1_wf : ScatterDims.WF S200000x32 S6400000x1 S6400000x32 [1] [0] [0] 1
  scatter_S200000_S2000000x1_S2000000_n_0_0_1_wf : ScatterDims.WF S200000 S2000000x1 S2000000 [] [0] [0] 1
  gather_S100000x128_S2000000x1_S2000000x128_1_0_n_n_0_1_1128_wf : GatherDims.WF S100000x128 S2000000x1 S2000000x128 [1] [0] [] [0] [] 1 ![1, 128]
  scatter_S200000x128_S2000000x1_S2000000x128_1_0_0_1_wf : ScatterDims.WF S200000x128 S2000000x1 S2000000x128 [1] [0] [0] 1
  dot_S200000x32_S32x1_S200000x1_1_0_0_1_n_n_wf : DotDims.WF S200000x32 S32x1 S200000x1 [1] [0] [0] [1] [] []

variable [Facts₀]

def dot_S200000x128_S128x32_S200000x32_1_0_0_1_n_n : DotDims S200000x128 S128x32 S200000x32 where
  lhsContracting := [1]
  rhsContracting := [0]
  lhsNonContracting := [0]
  rhsNonContracting := [1]
  lhsBatch := []
  rhsBatch := []
  wf := dot_S200000x128_S128x32_S200000x32_1_0_0_1_n_n_wf
def scatter_S200000_S6400000x1_S6400000_n_0_0_1 : ScatterDims S200000 S6400000x1 S6400000 where
  updateWindowDims := []
  insertedWindowDims := [0]
  scatterDimsToOperandDims := [0]
  indexVectorDim := 1
  wf := scatter_S200000_S6400000x1_S6400000_n_0_0_1_wf
def gather_S200000x32_S6400000x1_S6400000x32_1_0_n_n_0_1_132 : GatherDims S200000x32 S6400000x1 S6400000x32 where
  offsetDims := [1]
  collapsedSliceDims := [0]
  operandBatchingDims := []
  startIndicesBatchingDims := []
  startIndexMap := [0]
  indexVectorDim := 1
  sliceSizes := ![1, 32]
  wf := gather_S200000x32_S6400000x1_S6400000x32_1_0_n_n_0_1_132_wf
def gather_S200000_S6400000x1_S6400000_n_0_n_n_0_1_1 : GatherDims S200000 S6400000x1 S6400000 where
  offsetDims := []
  collapsedSliceDims := [0]
  operandBatchingDims := []
  startIndicesBatchingDims := []
  startIndexMap := [0]
  indexVectorDim := 1
  sliceSizes := ![1]
  wf := gather_S200000_S6400000x1_S6400000_n_0_n_n_0_1_1_wf
def scatter_S200000x32_S6400000x1_S6400000x32_1_0_0_1 : ScatterDims S200000x32 S6400000x1 S6400000x32 where
  updateWindowDims := [1]
  insertedWindowDims := [0]
  scatterDimsToOperandDims := [0]
  indexVectorDim := 1
  wf := scatter_S200000x32_S6400000x1_S6400000x32_1_0_0_1_wf
def scatter_S200000_S2000000x1_S2000000_n_0_0_1 : ScatterDims S200000 S2000000x1 S2000000 where
  updateWindowDims := []
  insertedWindowDims := [0]
  scatterDimsToOperandDims := [0]
  indexVectorDim := 1
  wf := scatter_S200000_S2000000x1_S2000000_n_0_0_1_wf
def gather_S100000x128_S2000000x1_S2000000x128_1_0_n_n_0_1_1128 : GatherDims S100000x128 S2000000x1 S2000000x128 where
  offsetDims := [1]
  collapsedSliceDims := [0]
  operandBatchingDims := []
  startIndicesBatchingDims := []
  startIndexMap := [0]
  indexVectorDim := 1
  sliceSizes := ![1, 128]
  wf := gather_S100000x128_S2000000x1_S2000000x128_1_0_n_n_0_1_1128_wf
def scatter_S200000x128_S2000000x1_S2000000x128_1_0_0_1 : ScatterDims S200000x128 S2000000x1 S2000000x128 where
  updateWindowDims := [1]
  insertedWindowDims := [0]
  scatterDimsToOperandDims := [0]
  indexVectorDim := 1
  wf := scatter_S200000x128_S2000000x1_S2000000x128_1_0_0_1_wf
def dot_S200000x32_S32x1_S200000x1_1_0_0_1_n_n : DotDims S200000x32 S32x1 S200000x1 where
  lhsContracting := [1]
  rhsContracting := [0]
  lhsNonContracting := [0]
  rhsNonContracting := [1]
  lhsBatch := []
  rhsBatch := []
  wf := dot_S200000x32_S32x1_S200000x1_1_0_0_1_n_n_wf

class Facts : Prop extends Facts₀ where

variable [Facts]
-- ==== Proof.ResultRun.lean ====
/-
  The idealized kernel's run with its result named.

  @main is four segments: the host operations before the first pallas_call, that call's region, the host operations
  between the two calls, and the second call's region. The buffer contents at the four boundaries are a fold through
  @main from the launch memory; the last boundary's contents are `Gen.W4`. Every weakly fair execution terminates, without a
  fault, in a state that holds every unscoped buffer at the last boundary's contents — in particular the program's result
  array `main_v72`, which therefore ends at `W4 … main_v72`: what the second region's write-backs leave in its output
  window's array — and the twelve argument arrays as launched.
-/
import proofs.«109172_j57827439674002_1_alg».proof.Proof.Gen.KernelIdeal.Frame

set_option maxRecDepth 16384

noncomputable section

namespace Cert.KernelIdeal.ResultRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of @main terminates, nothing faulting, with the result array at the last boundary's
    contents and the argument arrays as launched: the launch over the four segments, the last thread state read
    against the final state, the result's buffer being one of the unscoped buffers that state holds. -/
theorem run_result : θ_run defs (onTc (τ := τ) (main (F := F))) ⟨m, fun _ => 0, ρ⟩ (fun r => ∀ c : Dev nD,
      r.2.mem ((c.tc : Thread nD τ).loc main_v72) = W4 m ρ c (Proc.devRef .tc main_v72)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v72 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c)⟩)

/-- The result array is the second region's output window's array (window 7 of pipeline 1), so the last boundary's
    contents there are what that pipeline's write-backs leave: its proof data's array after all 25 points, the
    region entered from the contents `V3` (the first region's exit contents with the host operations between the two
    calls folded over them). -/
theorem run_array : θ_run defs (onTc (τ := τ) (main (F := F))) ⟨m, fun _ => 0, ρ⟩ (fun r => ∀ c : Dev nD,
      r.2.mem ((c.tc : Thread nD τ).loc main_v72) = (dat1 (V3 m ρ) c).arrAt 7 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c).1.trans (W4_arr m ρ c 7), (h c).2⟩) (run_result m ρ)

end Cert.KernelIdeal.ResultRun

end
-- ==== Proof.PackedProduct.lean ====
/- The packed feature product.

   The first kernel region walks the 200000 rows of the feature array in 25 blocks of 8000 rows. At each block it
   multiplies the block (8000 rows, 128 features) by the whole 128 × 64 weight array and writes the 8000 × 64 result
   back as the same rows of the output. A row of the output therefore depends on the same row of the feature array
   and on all of the weight array, and on nothing else: entry (r, j) is the sum over the 128 features k of
   feature (r, k) times weight (k, j). This file proves that, for any contents of the buffers when the region is
   entered: first for one block as a statement about vectors, then for what each grid point writes back, then for the
   whole array, since the 25 row blocks cover it. -/
import proofs.«109172_j57827439674002_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.PackedProduct

open Cert.KernelIdeal Cert.KernelIdeal.Gen Idealize.ShloMosaic Idealize.ShloMosaic.TcCoe Idealize.SL.Sem Idealize.ShloMosaic.ValueIdx
open Idealize.ShloMosaic.Pipeline (Dat)

/-! ## One block: the product of 8000 rows with the weights, entry by entry -/

/-- The left operand of the block product is read at the output's row … -/
theorem lhs_row (i : S8000x64.Idx) (q : dot_S8000x128_S128x64_S8000x64_1_0_0_1_n_n.contr.Idx) :
    (dot_S8000x128_S128x64_S8000x64_1_0_0_1_n_n.lhsIdx i q 0).val = (i 0).val := by
  unfold DotDims.lhsIdx
  rw [dif_neg (show ¬(0 : Fin S8000x128.rank) ∈ dot_S8000x128_S128x64_S8000x64_1_0_0_1_n_n.lhsBatch by decide), dif_pos (show (0 : Fin S8000x128.rank) ∈ dot_S8000x128_S128x64_S8000x64_1_0_0_1_n_n.lhsNonContracting by decide)]
  rfl
/-- … and at the contracted feature; -/
theorem lhs_feat (i : S8000x64.Idx) (q : dot_S8000x128_S128x64_S8000x64_1_0_0_1_n_n.contr.Idx) :
    (dot_S8000x128_S128x64_S8000x64_1_0_0_1_n_n.lhsIdx i q 1).val = (q ⟨0, by decide⟩).val :=
  dot_S8000x128_S128x64_S8000x64_1_0_0_1_n_n.lhsIdx_val_of_single rfl i q
/-- the right operand at the contracted feature … -/
theorem rhs_feat (i : S8000x64.Idx) (q : dot_S8000x128_S128x64_S8000x64_1_0_0_1_n_n.contr.Idx) :
    (dot_S8000x128_S128x64_S8000x64_1_0_0_1_n_n.rhsIdx i q 0).val = (q ⟨0, by decide⟩).val :=
  dot_S8000x128_S128x64_S8000x64_1_0_0_1_n_n.rhsIdx_val_of_single rfl i q
/-- … and at the output's column. -/
theorem rhs_col (i : S8000x64.Idx) (q : dot_S8000x128_S128x64_S8000x64_1_0_0_1_n_n.contr.Idx) :
    (dot_S8000x128_S128x64_S8000x64_1_0_0_1_n_n.rhsIdx i q 1).val = (i 1).val := by
  unfold DotDims.rhsIdx
  rw [dif_neg (show ¬(1 : Fin S128x64.rank) ∈ dot_S8000x128_S128x64_S8000x64_1_0_0_1_n_n.rhsBatch by decide), dif_pos (show (1 : Fin S128x64.rank) ∈ dot_S8000x128_S128x64_S8000x64_1_0_0_1_n_n.rhsNonContracting by decide)]
  rfl

set_option maxHeartbeats 400000 in
/-- What the body computes from a block `x0` of 8000 rows and the weights `x1`: at row `p` and column `q` the sum over
    the 128 features of the row's feature times the weight. The two format changes are the identity on extended reals,
    the reshape of the weights to their own shape is the identity, and the product accumulates into zero. -/
theorem pay_apply (x0 : Vec Ideal S8000x128 .f32) (x1 : Vec Ideal S128x64 .f32) (p : Fin 8000) (q : Fin 64) :
    k0_pay1 x0 x1 (ix2 p q) = ∑ k : Fin 128, x0 (ix2 p k) * x1 (ix2 k q) := by
  unfold k0_pay1
  refine (Ideal.matmul_constant_zero_apply dot_S8000x128_S128x64_S8000x64_1_0_0_1_n_n none _ _ (ix2 p q)).trans ?_
  rw [← Equiv.sum_comp (contrEquiv1 dot_S8000x128_S128x64_S8000x64_1_0_0_1_n_n 128 rfl rfl).symm]
  refine Finset.sum_congr rfl fun k _ => ?_
  have hk := contrEquiv1_symm_val dot_S8000x128_S128x64_S8000x64_1_0_0_1_n_n 128 rfl rfl k
  have el : dot_S8000x128_S128x64_S8000x64_1_0_0_1_n_n.lhsIdx (ix2 p q) ((contrEquiv1 dot_S8000x128_S128x64_S8000x64_1_0_0_1_n_n 128 rfl rfl).symm k) = ix2 p k := funext fun a => Fin.ext (by
    match a with
    | ⟨0, _⟩ => exact lhs_row _ _
    | ⟨1, _⟩ => exact (lhs_feat _ _).trans hk)
  have er : dot_S8000x128_S128x64_S8000x64_1_0_0_1_n_n.rhsIdx (ix2 p q) ((contrEquiv1 dot_S8000x128_S128x64_S8000x64_1_0_0_1_n_n 128 rfl rfl).symm k) = ix2 k q := funext fun a => Fin.ext (by
    match a with
    | ⟨0, _⟩ => exact (rhs_feat _ _).trans hk
    | ⟨1, _⟩ => exact rhs_col _ _)
  rw [el, er, shapeCast_self]
  rfl

/-! ## Where the blocks sit -/

theorem hz : (![0, 0] : Fin 2 → Nat) = fun _ => 0 := funext fun a => by fin_cases a <;> rfl

/-- The block indices over the grid: at point `t` the feature block and the output block are both row block `t`
    (column block 0), and the weight block is always the whole weight array. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

section
variable (V : (c : Dev nD) → (b : Ref sig .tc) → Buf (Elt Ideal) ((c : Thread nD τ).loc b))

/-- Row `p` of the feature block at point `t` is row `8000 t + p` of the feature array. -/
theorem feat_block (c : Dev nD) (t : Fin cfg0.N) (p : Fin 8000) (k : Fin 128) (i : S200000x128.Idx)
    (h0 : (i 0).val = t.val * 8000 + p.val) (h1 : (i 1).val = k.val) :
    (iblk0 V c 0 t : Vec Ideal S8000x128 .f32) (ix2 p k) = (V c main_arg0 : S200000x128.Idx → EReal) i := by
  obtain ⟨e0, e1, -, -, -, -⟩ := idx_facts t
  unfold iblk0
  show V c main_arg0 (((cfg0.win 0).blk t).view.emb (ix2 p k)) = V c main_arg0 i
  refine congrArg _ (funext fun a => Fin.ext ?_)
  match a with
  | ⟨0, _⟩ => show win0_0.index t (0 : Fin 2) * 8000 + 1 * p.val = (i 0).val; omega
  | ⟨1, _⟩ => show win0_0.index t (1 : Fin 2) * 128 + 1 * k.val = (i 1).val; omega

/-- The weight block at every point is the weight array. -/
theorem weight_block (c : Dev nD) (t : Fin cfg0.N) (k : Fin 128) (q : Fin 64) :
    (iblk0 V c 1 t : Vec Ideal S128x64 .f32) (ix2 k q) = (V c main_v0 : S128x64.Idx → EReal) (ix2 k q) := by
  obtain ⟨-, -, e2, e3, -, -⟩ := idx_facts t
  unfold iblk0
  show V c main_v0 (((cfg0.win 1).blk t).view.emb (ix2 k q)) = V c main_v0 (ix2 k q)
  refine congrArg _ (funext fun a => Fin.ext ?_)
  match a with
  | ⟨0, _⟩ => show win0_1.index t (0 : Fin 2) * 128 + 1 * k.val = k.val; omega
  | ⟨1, _⟩ => show win0_1.index t (1 : Fin 2) * 64 + 1 * q.val = q.val; omega

/-! ## The whole array -/

/-- The product of the whole feature array `A` with the weights `B`: entry (r, j) is the sum over the features `k` of
    `A (r, k) * B (k, j)`. -/
def rowProduct (A : S200000x128.Idx → EReal) (B : S128x64.Idx → EReal) : S200000x64.Idx → EReal :=
  fun i => ∑ k : Fin 128, A (ix2 (⟨(i 0).val, idx2_lt0 i⟩ : Fin 200000) k) * B (ix2 k (⟨(i 1).val, idx2_lt1 i⟩ : Fin 64))

/-- The product read at row `r` and column `j`. -/
theorem rowProduct_apply (A : S200000x128.Idx → EReal) (B : S128x64.Idx → EReal) (r : Fin 200000) (j : Fin 64) :
    rowProduct A B (ix2 r j) = ∑ k : Fin 128, A (ix2 r k) * B (ix2 k j) := rfl

set_option maxHeartbeats 400000 in
/-- What point `t` writes back is row block `t` of the product of the arrays as the region finds them: each of its
    rows is a row of the feature block at `t`, which is the same row of the array, times the weights. -/
theorem flushed_eq (c : Dev nD) (t : Fin cfg0.N) :
    (dat0 V c).flushed 2 t = ((cfg0.win 2).blk t).view.read (Elt Ideal) (rowProduct (V c main_arg0) (V c main_v0)) := by
  show (cfg0.win 2).cut (grid0.coords t) ((dat0 V c).after 2 t) = _
  rw [after0_2]
  unfold out0_2
  rw [View.canon_unit_zero hz]
  simp only [View.ld_unit_zero (S := S8000x128) hz, View.ld_unit_zero (S := S128x64) hz]
  obtain ⟨-, -, -, -, e4, e5⟩ := idx_facts t
  funext y
  have hp : (y 0).val < 8000 := (y 0).isLt
  have hq : (y 1).val < 64 := (y 1).isLt
  have hxy : (cfg0.win 2).xinj (grid0.coords t) y = ix2 (⟨(y 0).val, hp⟩ : Fin 8000) (⟨(y 1).val, hq⟩ : Fin 64) := by
    funext a
    match a with
    | ⟨0, _⟩ => rfl
    | ⟨1, _⟩ => rfl
  show k0_pay1 (iblk0 V c 0 t) (iblk0 V c 1 t) ((cfg0.win 2).xinj (grid0.coords t) y)
    = rowProduct (V c main_arg0) (V c main_v0) (((cfg0.win 2).blk t).view.emb y)
  refine (congrArg (k0_pay1 (iblk0 V c 0 t) (iblk0 V c 1 t)) hxy).trans ?_
  refine (pay_apply _ _ _ _).trans ?_
  unfold rowProduct
  refine Finset.sum_congr rfl fun k _ => ?_
  have hr0 : ((((cfg0.win 2).blk t).view.emb y) 0).val = t.val * 8000 + (y 0).val := by
    show win0_2.index t (0 : Fin 2) * 8000 + 1 * (y 0).val = _; omega
  have hr1 : ((((cfg0.win 2).blk t).view.emb y) 1).val = (y 1).val := by
    show win0_2.index t (1 : Fin 2) * 64 + 1 * (y 1).val = _; omega
  rw [feat_block V c t ⟨(y 0).val, hp⟩ k (ix2 ⟨((((cfg0.win 2).blk t).view.emb y) 0).val, idx2_lt0 _⟩ k) hr0 rfl,
    weight_block V c t k ⟨(y 1).val, hq⟩]
  refine congrArg _ (congrArg _ (congrArg (ix2 k) (Fin.ext hr1.symm)))

/-- An index of the output array is in point `t`'s block iff each coordinate is in the block's range on its axis. -/
theorem mem_blk (t : Fin cfg0.N) (i : S200000x64.Idx) :
    i ∈ ((cfg0.win 2).blk t).view.set ↔ ∀ a : Fin 2, win0_2.index t a * S8000x64.size a ≤ (i a).val ∧ (i a).val < win0_2.index t a * S8000x64.size a + S8000x64.size a := by
  show i ∈ ((View.whole main_v1).slice (win0_2.rect t)).set ↔ _
  rw [View.set_slice_whole, Rect.mem_set_unit]
  exact Iff.rfl

/-- Every index of the output array is in some point's block: row `r` is in row block `r / 8000`. -/
theorem cover (i : S200000x64.Idx) :
    ∃ t : Fin cfg0.N, (cfg0.win 2).flush t = true ∧ i ∈ ((cfg0.win 2).blk t).view.set := by
  have hN : cfg0.N = 25 := N_0
  have hi0 : (i 0).val < 200000 := idx2_lt0 i
  have hi1 : (i 1).val < 64 := idx2_lt1 i
  obtain ⟨t, ht⟩ : ∃ t : Fin cfg0.N, t.val = (i 0).val / 8000 := ⟨⟨(i 0).val / 8000, by omega⟩, rfl⟩
  obtain ⟨-, -, -, -, e4, e5⟩ := idx_facts t
  refine ⟨t, flush0_2 t, ?_⟩
  rw [mem_blk]
  intro a
  match a with
  | ⟨0, _⟩ => show win0_2.index t (0 : Fin 2) * 8000 ≤ (i 0).val ∧ (i 0).val < win0_2.index t (0 : Fin 2) * 8000 + 8000; omega
  | ⟨1, _⟩ => show win0_2.index t (1 : Fin 2) * 64 ≤ (i 1).val ∧ (i 1).val < win0_2.index t (1 : Fin 2) * 64 + 64; omega

/-- So the output array ends holding the product of the feature array with the weights. -/
theorem packed_eq (c : Dev nD) :
    (dat0 V c).arrAt 2 cfg0.N = rowProduct (V c main_arg0) (V c main_v0) :=
  (dat0 V c).arrAt_eq_of_cover 2 (rowProduct (V c main_arg0) (V c main_v0)) (fun t _ => flushed_eq V c t) cover

/-- Entry (r, j) of the output array after the region: the sum over the 128 features `k` of feature (r, k) as the
    region finds it times weight (k, j) as the region finds it. -/
theorem packed_apply (c : Dev nD) (r : Fin 200000) (j : Fin 64) :
    @Eq EReal ((dat0 (F := Ideal) V c).arrAt 2 cfg0.N (ix2 r j))
      (∑ k : Fin 128, @HMul.hMul EReal EReal EReal _ (V c main_arg0 (ix2 r k)) (V c main_v0 (ix2 k j))) :=
  congrFun (packed_eq V c) (ix2 r j)

end

end Cert.KernelIdeal.PackedProduct

end
-- ==== Proof.CombineHead.lean ====
/- The second kernel's body, the combine-and-project head, read at one row of its output array.

   The output array has one column and 200000 rows, written in 25 blocks of 8000 consecutive rows. Entry `r` depends on
   row `r` of three row-blocked arrays (128, 32 and 32 entries wide) and on four small arrays held whole: the 128-entry row
   is multiplied into a 128 × 32 matrix, a 32-entry bias row and the two 32-entry rows are added, and the resulting
   32-vector is multiplied into a 32 × 1 column, to which the one entry of a 1 × 1 array is added. At the ideal values a
   change of float format is the identity and a matrix product into a zero accumulator is the plain sum over the
   contracted axis, so the entry is a double sum of extended reals, in the association the body adds in.

   The file goes from one block to the array: the body's value at a row of a block (`pay_apply`), each block as rows of
   its array (`rows_*`, `whole_*`), what a grid point writes back as its block of one function of the arrays
   (`flushed_eq`), the blocks covering the array (`cover`), and the array after the run (`head_arr`, `head_apply`). -/
import proofs.«109172_j57827439674002_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.CombineHead

open Cert.KernelIdeal Cert.KernelIdeal.Gen Idealize.ShloMosaic Idealize.ShloMosaic.TcCoe Idealize.SL.Sem Idealize.ShloMosaic.ValueIdx
open Idealize.ShloMosaic.Pipeline (Dat)

/-! ## One row of the head, over any number of rows -/

/-- Row `r` of the head: the row of `a` times the matrix `w`, plus the bias row `b`, plus the rows of `x1` and `x2`,
    the 32-vector so obtained times the column `u`, plus the one entry of `d`. The additions are grouped as the body
    groups them. -/
def headRow {n : Nat} (a : (⟨2, ![n, 128]⟩ : Shape).Idx → Elt Ideal .f32) (w : S128x32.Idx → Elt Ideal .f32)
    (b : S1x32.Idx → Elt Ideal .f32) (x1 x2 : (⟨2, ![n, 32]⟩ : Shape).Idx → Elt Ideal .f32)
    (u : S32x1.Idx → Elt Ideal .f32) (d : S1x1.Idx → Elt Ideal .f32) (r : Fin n) : Elt Ideal .f32 :=
  (∑ j : Fin 32, ((((∑ k : Fin 128, a (ix2 r k) * w (ix2 k j)) + b (ix2 (0 : Fin 1) j)) + x1 (ix2 r j)) + x2 (ix2 r j))
      * u (ix2 j (0 : Fin 1))) + d (ix2 (0 : Fin 1) (0 : Fin 1))

/-- A row of the head depends on its arguments only through the entries it reads: row `p` of one family of arrays is
    row `r` of another when those entries agree. -/
theorem headRow_congr {n n' : Nat} {a : (⟨2, ![n, 128]⟩ : Shape).Idx → Elt Ideal .f32} {a' : (⟨2, ![n', 128]⟩ : Shape).Idx → Elt Ideal .f32}
    {w w' : S128x32.Idx → Elt Ideal .f32} {b b' : S1x32.Idx → Elt Ideal .f32}
    {x1 x2 : (⟨2, ![n, 32]⟩ : Shape).Idx → Elt Ideal .f32} {x1' x2' : (⟨2, ![n', 32]⟩ : Shape).Idx → Elt Ideal .f32}
    {u u' : S32x1.Idx → Elt Ideal .f32} {d d' : S1x1.Idx → Elt Ideal .f32} {p : Fin n} {r : Fin n'}
    (ha : ∀ k : Fin 128, a (ix2 p k) = a' (ix2 r k)) (hw : ∀ (k : Fin 128) (j : Fin 32), w (ix2 k j) = w' (ix2 k j))
    (hb : ∀ j : Fin 32, b (ix2 (0 : Fin 1) j) = b' (ix2 (0 : Fin 1) j))
    (h1 : ∀ j : Fin 32, x1 (ix2 p j) = x1' (ix2 r j)) (h2 : ∀ j : Fin 32, x2 (ix2 p j) = x2' (ix2 r j))
    (hu : ∀ j : Fin 32, u (ix2 j (0 : Fin 1)) = u' (ix2 j (0 : Fin 1)))
    (hd : d (ix2 (0 : Fin 1) (0 : Fin 1)) = d' (ix2 (0 : Fin 1) (0 : Fin 1))) :
    headRow a w b x1 x2 u d p = headRow a' w' b' x1' x2' u' d' r := by
  unfold headRow
  rw [hd]
  refine congrArg (· + d' (ix2 (0 : Fin 1) (0 : Fin 1))) (Finset.sum_congr rfl fun j _ => ?_)
  rw [hb j, h1 j, h2 j, hu j]
  refine congrArg (fun s => (((s + b' (ix2 (0 : Fin 1) j)) + x1' (ix2 r j)) + x2' (ix2 r j)) * u' (ix2 j (0 : Fin 1))) (Finset.sum_congr rfl fun k _ => ?_)
  rw [ha k, hw k j]

/-! ## The two matrix products at an entry -/

theorem lhs1_0 (i : S8000x32.Idx) (q : dot_S8000x128_S128x32_S8000x32_1_0_0_1_n_n.contr.Idx) : (dot_S8000x128_S128x32_S8000x32_1_0_0_1_n_n.lhsIdx i q 0).val = (i 0).val := by
  unfold DotDims.lhsIdx
  rw [dif_neg (show ¬(0 : Fin S8000x128.rank) ∈ dot_S8000x128_S128x32_S8000x32_1_0_0_1_n_n.lhsBatch by decide), dif_pos (show (0 : Fin S8000x128.rank) ∈ dot_S8000x128_S128x32_S8000x32_1_0_0_1_n_n.lhsNonContracting by decide)]
  rfl
theorem lhs1_1 (i : S8000x32.Idx) (q : dot_S8000x128_S128x32_S8000x32_1_0_0_1_n_n.contr.Idx) : (dot_S8000x128_S128x32_S8000x32_1_0_0_1_n_n.lhsIdx i q 1).val = (q ⟨0, by decide⟩).val :=
  dot_S8000x128_S128x32_S8000x32_1_0_0_1_n_n.lhsIdx_val_of_single rfl i q
theorem rhs1_0 (i : S8000x32.Idx) (q : dot_S8000x128_S128x32_S8000x32_1_0_0_1_n_n.contr.Idx) : (dot_S8000x128_S128x32_S8000x32_1_0_0_1_n_n.rhsIdx i q 0).val = (q ⟨0, by decide⟩).val :=
  dot_S8000x128_S128x32_S8000x32_1_0_0_1_n_n.rhsIdx_val_of_single rfl i q
theorem rhs1_1 (i : S8000x32.Idx) (q : dot_S8000x128_S128x32_S8000x32_1_0_0_1_n_n.contr.Idx) : (dot_S8000x128_S128x32_S8000x32_1_0_0_1_n_n.rhsIdx i q 1).val = (i 1).val := by
  unfold DotDims.rhsIdx
  rw [dif_neg (show ¬(1 : Fin S128x32.rank) ∈ dot_S8000x128_S128x32_S8000x32_1_0_0_1_n_n.rhsBatch by decide), dif_pos (show (1 : Fin S128x32.rank) ∈ dot_S8000x128_S128x32_S8000x32_1_0_0_1_n_n.rhsNonContracting by decide)]
  rfl

/-- The 8000 × 128 block times the 128 × 32 matrix, into a zero accumulator, at entry `(p, j)`: the sum over the
    128 contracted positions of row `p` times column `j`. -/
theorem rowsTimesMatrix_apply (a : FVec Ideal S8000x128 .bf16) (b : FVec Ideal S128x32 .bf16) (p : Fin 8000) (j : Fin 32) :
    matmul dot_S8000x128_S128x32_S8000x32_1_0_0_1_n_n none a b (constant (F := Ideal) S8000x32 .f32 0x00000000#32) (ix2 p j)
      = ∑ k : Fin 128, a (ix2 p k) * b (ix2 k j) := by
  show FloatOps.matmul dot_S8000x128_S128x32_S8000x32_1_0_0_1_n_n none a b (constant (F := Ideal) S8000x32 .f32 0x00000000#32) (ix2 p j) = _
  rw [Ideal.matmul_constant_zero_apply, ← Equiv.sum_comp (contrEquiv1 dot_S8000x128_S128x32_S8000x32_1_0_0_1_n_n 128 rfl rfl).symm]
  refine Finset.sum_congr rfl fun k _ => ?_
  have hk := contrEquiv1_symm_val dot_S8000x128_S128x32_S8000x32_1_0_0_1_n_n 128 rfl rfl k
  have el : dot_S8000x128_S128x32_S8000x32_1_0_0_1_n_n.lhsIdx (ix2 p j) ((contrEquiv1 dot_S8000x128_S128x32_S8000x32_1_0_0_1_n_n 128 rfl rfl).symm k) = ix2 p k := funext fun ax => Fin.ext (by
    match ax with
    | ⟨0, _⟩ => exact lhs1_0 _ _
    | ⟨1, _⟩ => exact (lhs1_1 _ _).trans hk)
  have er : dot_S8000x128_S128x32_S8000x32_1_0_0_1_n_n.rhsIdx (ix2 p j) ((contrEquiv1 dot_S8000x128_S128x32_S8000x32_1_0_0_1_n_n 128 rfl rfl).symm k) = ix2 k j := funext fun ax => Fin.ext (by
    match ax with
    | ⟨0, _⟩ => exact (rhs1_0 _ _).trans hk
    | ⟨1, _⟩ => exact rhs1_1 _ _)
  rw [el, er]

theorem lhs2_0 (i : S8000x1.Idx) (q : dot_S8000x32_S32x1_S8000x1_1_0_0_1_n_n.contr.Idx) : (dot_S8000x32_S32x1_S8000x1_1_0_0_1_n_n.lhsIdx i q 0).val = (i 0).val := by
  unfold DotDims.lhsIdx
  rw [dif_neg (show ¬(0 : Fin S8000x32.rank) ∈ dot_S8000x32_S32x1_S8000x1_1_0_0_1_n_n.lhsBatch by decide), dif_pos (show (0 : Fin S8000x32.rank) ∈ dot_S8000x32_S32x1_S8000x1_1_0_0_1_n_n.lhsNonContracting by decide)]
  rfl
theorem lhs2_1 (i : S8000x1.Idx) (q : dot_S8000x32_S32x1_S8000x1_1_0_0_1_n_n.contr.Idx) : (dot_S8000x32_S32x1_S8000x1_1_0_0_1_n_n.lhsIdx i q 1).val = (q ⟨0, by decide⟩).val :=
  dot_S8000x32_S32x1_S8000x1_1_0_0_1_n_n.lhsIdx_val_of_single rfl i q
theorem rhs2_0 (i : S8000x1.Idx) (q : dot_S8000x32_S32x1_S8000x1_1_0_0_1_n_n.contr.Idx) : (dot_S8000x32_S32x1_S8000x1_1_0_0_1_n_n.rhsIdx i q 0).val = (q ⟨0, by decide⟩).val :=
  dot_S8000x32_S32x1_S8000x1_1_0_0_1_n_n.rhsIdx_val_of_single rfl i q
theorem rhs2_1 (i : S8000x1.Idx) (q : dot_S8000x32_S32x1_S8000x1_1_0_0_1_n_n.contr.Idx) : (dot_S8000x32_S32x1_S8000x1_1_0_0_1_n_n.rhsIdx i q 1).val = (i 1).val := by
  unfold DotDims.rhsIdx
  rw [dif_neg (show ¬(1 : Fin S32x1.rank) ∈ dot_S8000x32_S32x1_S8000x1_1_0_0_1_n_n.rhsBatch by decide), dif_pos (show (1 : Fin S32x1.rank) ∈ dot_S8000x32_S32x1_S8000x1_1_0_0_1_n_n.rhsNonContracting by decide)]
  rfl

/-- The 8000 × 32 block times the 32 × 1 column, into a zero accumulator, at row `p`: the sum over the 32 contracted
    positions of row `p` times the column. -/
theorem rowsTimesColumn_apply (a : FVec Ideal S8000x32 .bf16) (b : FVec Ideal S32x1 .bf16) (p : Fin 8000) :
    matmul dot_S8000x32_S32x1_S8000x1_1_0_0_1_n_n none a b (constant (F := Ideal) S8000x1 .f32 0x00000000#32) (ix2 p (0 : Fin 1))
      = ∑ j : Fin 32, a (ix2 p j) * b (ix2 j (0 : Fin 1)) := by
  show FloatOps.matmul dot_S8000x32_S32x1_S8000x1_1_0_0_1_n_n none a b (constant (F := Ideal) S8000x1 .f32 0x00000000#32) (ix2 p (0 : Fin 1)) = _
  rw [Ideal.matmul_constant_zero_apply, ← Equiv.sum_comp (contrEquiv1 dot_S8000x32_S32x1_S8000x1_1_0_0_1_n_n 32 rfl rfl).symm]
  refine Finset.sum_congr rfl fun j _ => ?_
  have hj := contrEquiv1_symm_val dot_S8000x32_S32x1_S8000x1_1_0_0_1_n_n 32 rfl rfl j
  have el : dot_S8000x32_S32x1_S8000x1_1_0_0_1_n_n.lhsIdx (ix2 p (0 : Fin 1)) ((contrEquiv1 dot_S8000x32_S32x1_S8000x1_1_0_0_1_n_n 32 rfl rfl).symm j) = ix2 p j := funext fun ax => Fin.ext (by
    match ax with
    | ⟨0, _⟩ => exact lhs2_0 _ _
    | ⟨1, _⟩ => exact (lhs2_1 _ _).trans hj)
  have er : dot_S8000x32_S32x1_S8000x1_1_0_0_1_n_n.rhsIdx (ix2 p (0 : Fin 1)) ((contrEquiv1 dot_S8000x32_S32x1_S8000x1_1_0_0_1_n_n 32 rfl rfl).symm j) = ix2 j (0 : Fin 1) := funext fun ax => Fin.ext (by
    match ax with
    | ⟨0, _⟩ => exact (rhs2_0 _ _).trans hj
    | ⟨1, _⟩ => exact rhs2_1 _ _)
  rw [el, er]

/-! ## The body's value at a row of a block -/

/-- The body's stored value at row `p` of a block is row `p` of the head of the loaded blocks: the casts to the same
    shape and the changes of float format are the identity, each product into a zero accumulator is its sum, and each of
    the two one-row arrays is broadcast down the rows. -/
theorem pay_apply (v0 : Vec Ideal S8000x128 .f32) (v3 : Vec Ideal S128x32 .f32) (v6 : Vec Ideal S1x32 .f32)
    (v10 v13 : Vec Ideal S8000x32 .f32) (v17 : Vec Ideal S32x1 .f32) (v20 : Vec Ideal S1x1 .f32) (p : Fin 8000) :
    k1_pay1 v0 v3 v6 v10 v13 v17 v20 (ix2 p (0 : Fin 1)) = headRow v0 v3 v6 v10 v13 v17 v20 p := by
  unfold k1_pay1 headRow
  simp only [shapeCast_self]
  rw [addf_apply, rowsTimesColumn_apply, broadcastTo_1b_ab_apply]
  refine congrArg (· + v20 (ix2 (0 : Fin 1) (0 : Fin 1))) (Finset.sum_congr rfl fun j _ => ?_)
  rw [truncf_apply, truncf_apply, addf_apply, addf_apply, addf_apply, rowsTimesMatrix_apply, broadcastTo_1b_ab_apply]
  simp only [truncf_apply]

/-- The same at any index of the block, whose second coordinate can only be `0`. -/
theorem pay_at (v0 : Vec Ideal S8000x128 .f32) (v3 : Vec Ideal S128x32 .f32) (v6 : Vec Ideal S1x32 .f32)
    (v10 v13 : Vec Ideal S8000x32 .f32) (v17 : Vec Ideal S32x1 .f32) (v20 : Vec Ideal S1x1 .f32) (y : S8000x1.Idx) :
    k1_pay1 v0 v3 v6 v10 v13 v17 v20 y = headRow v0 v3 v6 v10 v13 v17 v20 ⟨(y 0).val, idx2_lt0 y⟩ := by
  obtain ⟨p, q, rfl⟩ : ∃ (p : Fin 8000) (q : Fin 1), y = ix2 p q := ⟨y 0, y 1, eq_ix2 y⟩
  obtain rfl : q = 0 := Subsingleton.elim _ _
  exact pay_apply v0 v3 v6 v10 v13 v17 v20 p

/-! ## Each block as rows of its array -/

theorem hz : (![0, 0] : Fin 2 → Nat) = fun _ => 0 := funext fun a => by fin_cases a <;> rfl

/-- The printed index maps, decided once over the 25 grid points: at point `t` each of the three row-blocked input
    windows and the output window is at block `(t, 0)`, and each of the four windows over a whole small array at
    block `(0, 0)`. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

variable (V : (c : Dev nD) → (b : Ref sig .tc) → Buf (Elt Ideal) ((c : Thread nD τ).loc b))

/-- Row `p` of the 128-wide block at point `t` is row `8000 t + p` of its array. -/
theorem rows_v69 (c : Dev nD) (t : Fin cfg1.N) (p : Fin 8000) (k : Fin 128) (r : Fin 200000) (hr : r.val = t.val * 8000 + p.val) :
    iblk1 V c 0 t (ix2 p k) = V c main_v69 (ix2 r k) := by
  obtain ⟨e0, e1, -⟩ := idx_facts t
  show V c main_v69 (((cfg1.win 0).blk t).view.emb (ix2 p k)) = V c main_v69 (ix2 r k)
  congr 1
  funext a; apply Fin.ext
  match a with
  | ⟨0, _⟩ => show win1_0.index t (0 : Fin 2) * 8000 + 1 * p.val = r.val; omega
  | ⟨1, _⟩ => show win1_0.index t (1 : Fin 2) * 128 + 1 * k.val = k.val; omega

/-- Row `p` of the first 32-wide block at point `t` is row `8000 t + p` of its array. -/
theorem rows_v3 (c : Dev nD) (t : Fin cfg1.N) (p : Fin 8000) (j : Fin 32) (r : Fin 200000) (hr : r.val = t.val * 8000 + p.val) :
    iblk1 V c 1 t (ix2 p j) = V c main_v3 (ix2 r j) := by
  obtain ⟨-, -, e0, e1, -⟩ := idx_facts t
  show V c main_v3 (((cfg1.win 1).blk t).view.emb (ix2 p j)) = V c main_v3 (ix2 r j)
  congr 1
  funext a; apply Fin.ext
  match a with
  | ⟨0, _⟩ => show win1_1.index t (0 : Fin 2) * 8000 + 1 * p.val = r.val; omega
  | ⟨1, _⟩ => show win1_1.index t (1 : Fin 2) * 32 + 1 * j.val = j.val; omega

/-- Row `p` of the second 32-wide block at point `t` is row `8000 t + p` of its array. -/
theorem rows_v50 (c : Dev nD) (t : Fin cfg1.N) (p : Fin 8000) (j : Fin 32) (r : Fin 200000) (hr : r.val = t.val * 8000 + p.val) :
    iblk1 V c 2 t (ix2 p j) = V c main_v50 (ix2 r j) := by
  obtain ⟨-, -, -, -, e0, e1, -⟩ := idx_facts t
  show V c main_v50 (((cfg1.win 2).blk t).view.emb (ix2 p j)) = V c main_v50 (ix2 r j)
  congr 1
  funext a; apply Fin.ext
  match a with
  | ⟨0, _⟩ => show win1_2.index t (0 : Fin 2) * 8000 + 1 * p.val = r.val; omega
  | ⟨1, _⟩ => show win1_2.index t (1 : Fin 2) * 32 + 1 * j.val = j.val; omega

/-- The 128 × 32 matrix is held whole: its block at every point is the array. -/
theorem whole_arg7 (c : Dev nD) (t : Fin cfg1.N) (k : Fin 128) (j : Fin 32) :
    iblk1 V c 3 t (ix2 k j) = V c main_arg7 (ix2 k j) := by
  obtain ⟨-, -, -, -, -, -, e0, e1, -⟩ := idx_facts t
  show V c main_arg7 (((cfg1.win 3).blk t).view.emb (ix2 k j)) = V c main_arg7 (ix2 k j)
  congr 1
  funext a; apply Fin.ext
  match a with
  | ⟨0, _⟩ => show win1_3.index t (0 : Fin 2) * 128 + 1 * k.val = k.val; omega
  | ⟨1, _⟩ => show win1_3.index t (1 : Fin 2) * 32 + 1 * j.val = j.val; omega

/-- The bias row is held whole. -/
theorem whole_v70 (c : Dev nD) (t : Fin cfg1.N) (z : Fin 1) (j : Fin 32) :
    iblk1 V c 4 t (ix2 z j) = V c main_v70 (ix2 z j) := by
  obtain ⟨-, -, -, -, -, -, -, -, e0, e1, -⟩ := idx_facts t
  show V c main_v70 (((cfg1.win 4).blk t).view.emb (ix2 z j)) = V c main_v70 (ix2 z j)
  congr 1
  funext a; apply Fin.ext
  match a with
  | ⟨0, _⟩ => show win1_4.index t (0 : Fin 2) * 1 + 1 * z.val = z.val; omega
  | ⟨1, _⟩ => show win1_4.index t (1 : Fin 2) * 32 + 1 * j.val = j.val; omega

/-- The 32 × 1 column is held whole. -/
theorem whole_arg10 (c : Dev nD) (t : Fin cfg1.N) (j : Fin 32) (z : Fin 1) :
    iblk1 V c 5 t (ix2 j z) = V c main_arg10 (ix2 j z) := by
  obtain ⟨-, -, -, -, -, -, -, -, -, -, e0, e1, -⟩ := idx_facts t
  show V c main_arg10 (((cfg1.win 5).blk t).view.emb (ix2 j z)) = V c main_arg10 (ix2 j z)
  congr 1
  funext a; apply Fin.ext
  match a with
  | ⟨0, _⟩ => show win1_5.index t (0 : Fin 2) * 32 + 1 * j.val = j.val; omega
  | ⟨1, _⟩ => show win1_5.index t (1 : Fin 2) * 1 + 1 * z.val = z.val; omega

/-- The 1 × 1 array is held whole. -/
theorem whole_v71 (c : Dev nD) (t : Fin cfg1.N) (z z' : Fin 1) :
    iblk1 V c 6 t (ix2 z z') = V c main_v71 (ix2 z z') := by
  obtain ⟨-, -, -, -, -, -, -, -, -, -, -, -, e0, e1, -⟩ := idx_facts t
  show V c main_v71 (((cfg1.win 6).blk t).view.emb (ix2 z z')) = V c main_v71 (ix2 z z')
  congr 1
  funext a; apply Fin.ext
  match a with
  | ⟨0, _⟩ => show win1_6.index t (0 : Fin 2) * 1 + 1 * z.val = z.val; omega
  | ⟨1, _⟩ => show win1_6.index t (1 : Fin 2) * 1 + 1 * z'.val = z'.val; omega

/-- So row `p` of the head of the blocks at point `t` is row `8000 t + p` of the head of the arrays. -/
theorem headRow_blk (c : Dev nD) (t : Fin cfg1.N) (p : Fin 8000) (r : Fin 200000) (hr : r.val = t.val * 8000 + p.val) :
    headRow (n := 8000) (iblk1 V c 0 t) (iblk1 V c 3 t) (iblk1 V c 4 t) (iblk1 V c 1 t) (iblk1 V c 2 t) (iblk1 V c 5 t) (iblk1 V c 6 t) p
      = headRow (n := 200000) (V c main_v69) (V c main_arg7) (V c main_v70) (V c main_v3) (V c main_v50) (V c main_arg10) (V c main_v71) r :=
  headRow_congr (fun k => rows_v69 V c t p k r hr) (fun k j => whole_arg7 V c t k j) (fun j => whole_v70 V c t 0 j)
    (fun j => rows_v3 V c t p j r hr) (fun j => rows_v50 V c t p j r hr) (fun j => whole_arg10 V c t j 0) (whole_v71 V c t 0 0)

/-! ## From blocks to the array -/

/-- The head of every row, as one function of the seven arrays as the region finds them. -/
def headArr (c : Dev nD) : S200000x1.Idx → Elt Ideal .f32 := fun i =>
  headRow (n := 200000) (V c main_v69) (V c main_arg7) (V c main_v70) (V c main_v3) (V c main_v50) (V c main_arg10) (V c main_v71)
    ⟨(i 0).val, idx2_lt0 i⟩

/-- What grid point `t` writes back is block `t` of the head of the arrays: rows `8000 t … 8000 t + 7999`. -/
theorem flushed_eq (c : Dev nD) (t : Fin cfg1.N) :
    (dat1 (F := Ideal) V c).flushed 7 t = ((cfg1.win 7).blk t).view.read (Elt Ideal) (headArr V c) := by
  show (cfg1.win 7).cut (grid1.coords t) ((dat1 (F := Ideal) V c).after 7 t) = _
  rw [after1_7]
  unfold out1_7
  rw [View.canon_unit_zero hz]
  simp only [View.ld_unit_zero (S := S8000x128) hz, View.ld_unit_zero (S := S128x32) hz, View.ld_unit_zero (S := S1x32) hz,
    View.ld_unit_zero (S := S8000x32) hz, View.ld_unit_zero (S := S32x1) hz, View.ld_unit_zero (S := S1x1) hz]
  obtain ⟨-, -, -, -, -, -, -, -, -, -, -, -, -, -, e0, e1⟩ := idx_facts t
  funext y
  show k1_pay1 (iblk1 V c 0 t) (iblk1 V c 3 t) (iblk1 V c 4 t) (iblk1 V c 1 t) (iblk1 V c 2 t) (iblk1 V c 5 t) (iblk1 V c 6 t) y
    = headArr V c (((cfg1.win 7).blk t).view.emb y)
  refine (pay_at _ _ _ _ _ _ _ y).trans ?_
  exact headRow_blk V c t _ _ (by
    show win1_7.index t (0 : Fin 2) * 8000 + 1 * (y 0).val = t.val * 8000 + (y 0).val
    omega)

/-- An index of the output array is in point `t`'s block iff each coordinate is in the block's range on its axis. -/
theorem mem_blk (t : Fin cfg1.N) (i : S200000x1.Idx) :
    i ∈ ((cfg1.win 7).blk t).view.set ↔ ∀ a : Fin 2, win1_7.index t a * S8000x1.size a ≤ (i a).val ∧ (i a).val < win1_7.index t a * S8000x1.size a + S8000x1.size a := by
  show i ∈ ((View.whole main_v72).slice (win1_7.rect t)).set ↔ _
  rw [View.set_slice_whole, Rect.mem_set_unit]
  exact Iff.rfl

/-- The 25 blocks cover the array: row `r` is in the block of point `r / 8000`, which writes back. -/
theorem cover (i : S200000x1.Idx) : ∃ t : Fin cfg1.N, (cfg1.win 7).flush t = true ∧ i ∈ ((cfg1.win 7).blk t).view.set := by
  have h0 : (i 0).val < 200000 := idx2_lt0 i
  have h1 : (i 1).val < 1 := idx2_lt1 i
  obtain ⟨t, ht⟩ : ∃ t : Fin cfg1.N, t.val = (i 0).val / 8000 :=
    ⟨⟨(i 0).val / 8000, by rw [show cfg1.N = 25 from N_1]; omega⟩, rfl⟩
  obtain ⟨-, -, -, -, -, -, -, -, -, -, -, -, -, -, e0, e1⟩ := idx_facts t
  refine ⟨t, flush1_7 t, ?_⟩
  rw [mem_blk]
  intro a
  match a with
  | ⟨0, _⟩ => show win1_7.index t (0 : Fin 2) * 8000 ≤ (i 0).val ∧ (i 0).val < win1_7.index t (0 : Fin 2) * 8000 + 8000; omega
  | ⟨1, _⟩ => show win1_7.index t (1 : Fin 2) * 1 ≤ (i 1).val ∧ (i 1).val < win1_7.index t (1 : Fin 2) * 1 + 1; omega

/-- The output array after the run is the head of the seven arrays, row by row. -/
theorem head_arr (c : Dev nD) : (dat1 (F := Ideal) V c).arrAt 7 cfg1.N = headArr V c :=
  (dat1 (F := Ideal) V c).arrAt_eq_of_cover 7 (headArr V c) (fun t _ => flushed_eq V c t) cover

/-- Entry `r` of the output array after the run is row `r` of the head of the seven arrays as the region finds them. -/
theorem head_apply (c : Dev nD) (r : Fin 200000) :
    (dat1 (F := Ideal) V c).arrAt 7 cfg1.N (ix2 r (0 : Fin 1)) =
      headRow (n := 200000) (V c main_v69) (V c main_arg7) (V c main_v70) (V c main_v3) (V c main_v50) (V c main_arg10) (V c main_v71) r :=
  congrFun (head_arr V c) (ix2 r (0 : Fin 1))

/-- The same with the seven arrays named: the 128-term product of row `r` with the matrix, plus the bias row, plus the
    two 32-entry rows `r`, then the 32-term product with the column, plus the 1 × 1 array's entry. -/
theorem head_apply_of (c : Dev nD) (r : Fin 200000) (a69 : S200000x128.Idx → Elt Ideal .f32) (a3 a50 : S200000x32.Idx → Elt Ideal .f32)
    (w7 : S128x32.Idx → Elt Ideal .f32) (b70 : S1x32.Idx → Elt Ideal .f32) (w10 : S32x1.Idx → Elt Ideal .f32) (b71 : S1x1.Idx → Elt Ideal .f32)
    (h69 : V c main_v69 = a69) (h3 : V c main_v3 = a3) (h50 : V c main_v50 = a50) (h7 : V c main_arg7 = w7)
    (h70 : V c main_v70 = b70) (h10 : V c main_arg10 = w10) (h71 : V c main_v71 = b71) :
    (dat1 (F := Ideal) V c).arrAt 7 cfg1.N (ix2 r (0 : Fin 1)) =
      (∑ j : Fin 32, ((((∑ k : Fin 128, a69 (ix2 r k) * w7 (ix2 k j)) + b70 (ix2 (0 : Fin 1) j)) + a3 (ix2 r j)) + a50 (ix2 r j)) * w10 (ix2 j (0 : Fin 1))) + b71 (ix2 (0 : Fin 1) (0 : Fin 1)) := by
  subst h69 h3 h50 h7 h70 h10 h71
  exact head_apply V c r

end Cert.KernelIdeal.CombineHead

end
-- ==== Proof.RefRead.lean ====
/-
  The reference's result, read at a row.

  The reference computes, for every paper r, a 32-vector and projects it on one column:
    out r = Σ_j ( gcn r j + ((Σ_k mean r k · Wl k j + bl j) + Σ_k x r k · Wr k j) ) · Wout j + bout.
  Here `mean` (the neighbour mean over the author edges) depends on the author features and the two edge-index vectors
  only, and `gcn` (the symmetric-normalised aggregation over the citation edges, self loop and bias) depends on the
  transformed features h = x · Wg, on the citation edge indices and on the bias, and on nothing else. Both are carried as
  OPAQUE functions of those inputs: the gathers and scatter-adds inside them are never opened, because the kernel's program
  applies the very same operations to its own h. What is read index by index is only the dense part: the three products, the
  broadcasts of the two bias vectors, and the sums.
-/
import proofs.«109172_j57827439674002_1_alg».proof.Proof.Gen.ReferenceIdeal.Read
import Idealize.ShloMosaic.Lib.ValueIdx

noncomputable section

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.ValueIdx

/-- The graph-convolution branch as a function of the transformed features `h` (a [200000, 32] array), the citation edge
    indices `x2` and the bias `x6`: the messages h[src] · (dinv[src] · dinv[dst]) summed into their destination rows, plus
    the self-loop term h · dinv², plus the bias on every row — with the degree, its inverse square root, the index
    normalisation and the broadcasts kept as the reference's own stages of `x2` and `x6`. -/
def gcnOf (h : FVec Ideal S200000x32 .f32) (x2 : (⟨S2x6400000, .i32⟩ : BufTy).Contents (Elt Ideal))
    (x6 : (⟨S32, .f32⟩ : BufTy).Contents (Elt Ideal)) : FVec Ideal S200000x32 .f32 :=
  addf (F := Ideal) (addf (F := Ideal) (Host.scatterAdd (F := Ideal) scatter_S200000x32_S6400000x1_S6400000x32_1_0_0_1 (val_main_v37 (F := Ideal)) (val_main_v38 (F := Ideal) x2)
      (mulf (F := Ideal) (Host.gather gather_S200000x32_S6400000x1_S6400000x32_1_0_n_n_0_1_132 h (val_main_v17 (F := Ideal) x2)) (val_main_v35 (F := Ideal) x2)))
    (mulf (F := Ideal) h (val_main_v42 (F := Ideal) x2))) (val_main_v46 (F := Ideal) x6)

/-- The reference's graph-convolution stage is that function of its own transformed features x · Wg. -/
theorem gcn_stage (x0 : (⟨S200000x128, .f32⟩ : BufTy).Contents (Elt Ideal)) (x2 : (⟨S2x6400000, .i32⟩ : BufTy).Contents (Elt Ideal))
    (x5 : (⟨S128x32, .f32⟩ : BufTy).Contents (Elt Ideal)) (x6 : (⟨S32, .f32⟩ : BufTy).Contents (Elt Ideal)) :
    val_main_v47 (F := Ideal) x0 x2 x5 x6 = gcnOf (val_main_v4 (F := Ideal) x0 x5) x2 x6 := by
  unfold val_main_v47 val_main_v44 val_main_v39 val_main_v43 val_main_v36 val_main_v18 gcnOf
  rfl

/-! ## The generated index functions at coordinates -/

theorem lidx74 (r : Fin 200000) (j : Fin 32) : lidx_main_v74 (ix2 r (0 : Fin 1)) j = ix2 r j :=
  funext fun a => Fin.ext (by match a with | ⟨0, _⟩ => rfl | ⟨1, _⟩ => rfl)
theorem ridx74 (r : Fin 200000) (j : Fin 32) : ridx_main_v74 (ix2 r (0 : Fin 1)) j = ix2 j (0 : Fin 1) :=
  funext fun a => Fin.ext (by match a with | ⟨0, _⟩ => rfl | ⟨1, _⟩ => rfl)
theorem lidx67 (r : Fin 200000) (j : Fin 32) (k : Fin 128) : lidx_main_v67 (ix2 r j) k = ix2 r k :=
  funext fun a => Fin.ext (by match a with | ⟨0, _⟩ => rfl | ⟨1, _⟩ => rfl)
theorem ridx67 (r : Fin 200000) (j : Fin 32) (k : Fin 128) : ridx_main_v67 (ix2 r j) k = ix2 k j :=
  funext fun a => Fin.ext (by match a with | ⟨0, _⟩ => rfl | ⟨1, _⟩ => rfl)
theorem lidx71 (r : Fin 200000) (j : Fin 32) (k : Fin 128) : lidx_main_v71 (ix2 r j) k = ix2 r k :=
  funext fun a => Fin.ext (by match a with | ⟨0, _⟩ => rfl | ⟨1, _⟩ => rfl)
theorem ridx71 (r : Fin 200000) (j : Fin 32) (k : Fin 128) : ridx_main_v71 (ix2 r j) k = ix2 k j :=
  funext fun a => Fin.ext (by match a with | ⟨0, _⟩ => rfl | ⟨1, _⟩ => rfl)
theorem lidx4 (r : Fin 200000) (j : Fin 32) (k : Fin 128) : lidx_main_v4 (ix2 r j) k = ix2 r k :=
  funext fun a => Fin.ext (by match a with | ⟨0, _⟩ => rfl | ⟨1, _⟩ => rfl)
theorem ridx4 (r : Fin 200000) (j : Fin 32) (k : Fin 128) : ridx_main_v4 (ix2 r j) k = ix2 k j :=
  funext fun a => Fin.ext (by match a with | ⟨0, _⟩ => rfl | ⟨1, _⟩ => rfl)
/-- The row bias [32] → [1, 32] → [200000, 32] read at (r, j) is the bias at j. -/
theorem idx69 (r : Fin 200000) (j : Fin 32) : idx_main_v68 (idx_main_v69 (ix2 r j)) = ix1 j :=
  funext fun a => Fin.ext (by match a with | ⟨0, _⟩ => rfl)
/-- The scalar bias [1] → [1, 1] → [200000, 1] read at (r, 0) is its one entry. -/
theorem idx76 (r : Fin 200000) : idx_main_v75 (idx_main_v76 (ix2 r (0 : Fin 1))) = ix1 (0 : Fin 1) :=
  funext fun a => Fin.ext (by match a with | ⟨0, _⟩ => rfl)

/-! ## The transformed features and the result at coordinates -/

/-- The reference's transformed features at (r, j): row r of x against column j of Wg. -/
theorem feat_at (x0 : (⟨S200000x128, .f32⟩ : BufTy).Contents (Elt Ideal)) (x5 : (⟨S128x32, .f32⟩ : BufTy).Contents (Elt Ideal))
    (r : Fin 200000) (j : Fin 32) :
    val_main_v4 (F := Ideal) x0 x5 (ix2 r j) = ∑ k : Fin 128, x0 (ix2 r k) * x5 (ix2 k j) := by
  rewrite [val_main_v4_apply]
  simp only [lidx4, ridx4]

/-- The 32-vector the reference projects, at (r, j): the graph-convolution branch plus the neighbour-mean branch
    (mean · Wl + bl, plus the root term x · Wr). -/
theorem hidden_at (x0 : (⟨S200000x128, .f32⟩ : BufTy).Contents (Elt Ideal)) (x1 : (⟨S100000x128, .f32⟩ : BufTy).Contents (Elt Ideal))
    (x2 : (⟨S2x6400000, .i32⟩ : BufTy).Contents (Elt Ideal)) (x3 x4 : (⟨S2000000, .i32⟩ : BufTy).Contents (Elt Ideal))
    (x5 : (⟨S128x32, .f32⟩ : BufTy).Contents (Elt Ideal)) (x6 : (⟨S32, .f32⟩ : BufTy).Contents (Elt Ideal))
    (x7 : (⟨S128x32, .f32⟩ : BufTy).Contents (Elt Ideal)) (x8 : (⟨S32, .f32⟩ : BufTy).Contents (Elt Ideal))
    (x9 : (⟨S128x32, .f32⟩ : BufTy).Contents (Elt Ideal)) (r : Fin 200000) (j : Fin 32) :
    val_main_v73 (F := Ideal) x0 x1 x2 x3 x4 x5 x6 x7 x8 x9 (ix2 r j) =
      gcnOf (val_main_v4 (F := Ideal) x0 x5) x2 x6 (ix2 r j)
        + (((∑ k : Fin 128, val_main_v66 (F := Ideal) x1 x3 x4 (ix2 r k) * x7 (ix2 k j)) + x8 (ix1 j))
            + ∑ k : Fin 128, x0 (ix2 r k) * x9 (ix2 k j)) := by
  rewrite [val_main_v73_apply, val_main_v72_apply, val_main_v70_apply, val_main_v67_apply, val_main_v69_apply, val_main_v68_apply,
    val_main_v71_apply, gcn_stage, idx69]
  simp only [Ideal.addf_def, lidx67, ridx67, lidx71, ridx71]

/-- THE REFERENCE'S RESULT at row r: the 32-vector against the output column, plus the output bias. -/
theorem result_at (x0 : (⟨S200000x128, .f32⟩ : BufTy).Contents (Elt Ideal)) (x1 : (⟨S100000x128, .f32⟩ : BufTy).Contents (Elt Ideal))
    (x2 : (⟨S2x6400000, .i32⟩ : BufTy).Contents (Elt Ideal)) (x3 x4 : (⟨S2000000, .i32⟩ : BufTy).Contents (Elt Ideal))
    (x5 : (⟨S128x32, .f32⟩ : BufTy).Contents (Elt Ideal)) (x6 : (⟨S32, .f32⟩ : BufTy).Contents (Elt Ideal))
    (x7 : (⟨S128x32, .f32⟩ : BufTy).Contents (Elt Ideal)) (x8 : (⟨S32, .f32⟩ : BufTy).Contents (Elt Ideal))
    (x9 : (⟨S128x32, .f32⟩ : BufTy).Contents (Elt Ideal)) (x10 : (⟨S32x1, .f32⟩ : BufTy).Contents (Elt Ideal))
    (x11 : (⟨S1, .f32⟩ : BufTy).Contents (Elt Ideal)) (r : Fin 200000) :
    val_main_v77 (F := Ideal) x0 x1 x2 x3 x4 x5 x6 x7 x8 x9 x10 x11 (ix2 r (0 : Fin 1)) =
      (∑ j : Fin 32, (gcnOf (val_main_v4 (F := Ideal) x0 x5) x2 x6 (ix2 r j)
          + (((∑ k : Fin 128, val_main_v66 (F := Ideal) x1 x3 x4 (ix2 r k) * x7 (ix2 k j)) + x8 (ix1 j))
              + ∑ k : Fin 128, x0 (ix2 r k) * x9 (ix2 k j))) * x10 (ix2 j (0 : Fin 1)))
        + x11 (ix1 (0 : Fin 1)) := by
  rewrite [val_main_v77_apply, val_main_v74_apply, val_main_v76_apply, val_main_v75_apply, idx76]
  simp only [Ideal.addf_def, lidx74, ridx74, hidden_at]

/-! ## The result as one function of its pieces -/

/-- The projected sum as ONE function of the arrays it is read from, row by row: `g` the graph-convolution branch,
    `mean` the neighbour mean, `x0` the paper features, `w7` / `b8` the mean branch's weights and bias, `w9` the root
    weights, `w10` / `b11` the output column and bias. Both programs' results are stated as this function. -/
def headOf (g : S200000x32.Idx → EReal) (mean x0 : S200000x128.Idx → EReal) (w7 w9 : S128x32.Idx → EReal) (b8 : S32.Idx → EReal)
    (w10 : S32x1.Idx → EReal) (b11 : S1.Idx → EReal) : S200000x1.Idx → EReal := fun i =>
  (∑ j : Fin 32, (g (ix2 (⟨(i 0).val, idx2_lt0 i⟩ : Fin 200000) j)
      + (((∑ k : Fin 128, mean (ix2 (⟨(i 0).val, idx2_lt0 i⟩ : Fin 200000) k) * w7 (ix2 k j)) + b8 (ix1 j))
          + ∑ k : Fin 128, x0 (ix2 (⟨(i 0).val, idx2_lt0 i⟩ : Fin 200000) k) * w9 (ix2 k j))) * w10 (ix2 j (0 : Fin 1)))
    + b11 (ix1 (0 : Fin 1))

/-- At row r the function reads row r of each of its row-indexed arrays. -/
theorem headOf_apply (g : S200000x32.Idx → EReal) (mean x0 : S200000x128.Idx → EReal) (w7 w9 : S128x32.Idx → EReal) (b8 : S32.Idx → EReal)
    (w10 : S32x1.Idx → EReal) (b11 : S1.Idx → EReal) (r : Fin 200000) :
    headOf g mean x0 w7 w9 b8 w10 b11 (ix2 r (0 : Fin 1)) =
      (∑ j : Fin 32, (g (ix2 r j) + (((∑ k : Fin 128, mean (ix2 r k) * w7 (ix2 k j)) + b8 (ix1 j)) + ∑ k : Fin 128, x0 (ix2 r k) * w9 (ix2 k j)))
          * w10 (ix2 j (0 : Fin 1))) + b11 (ix1 (0 : Fin 1)) := rfl

/-- Every index of a one-column array is a row and the column 0. -/
theorem exists_row (i : S200000x1.Idx) : ∃ r : Fin 200000, i = ix2 r (0 : Fin 1) := by
  have h1 : i 1 = (0 : Fin 1) := Fin.ext (by have := idx2_lt1 i; show (i 1).val = 0; omega)
  exact ⟨i 0, by rw [← h1]; exact eq_ix2 i⟩

/-- THE REFERENCE'S RESULT ARRAY is that function of its graph-convolution stage, its neighbour-mean stage and its
    arguments. -/
theorem result_eq (x0 : (⟨S200000x128, .f32⟩ : BufTy).Contents (Elt Ideal)) (x1 : (⟨S100000x128, .f32⟩ : BufTy).Contents (Elt Ideal))
    (x2 : (⟨S2x6400000, .i32⟩ : BufTy).Contents (Elt Ideal)) (x3 x4 : (⟨S2000000, .i32⟩ : BufTy).Contents (Elt Ideal))
    (x5 : (⟨S128x32, .f32⟩ : BufTy).Contents (Elt Ideal)) (x6 : (⟨S32, .f32⟩ : BufTy).Contents (Elt Ideal))
    (x7 : (⟨S128x32, .f32⟩ : BufTy).Contents (Elt Ideal)) (x8 : (⟨S32, .f32⟩ : BufTy).Contents (Elt Ideal))
    (x9 : (⟨S128x32, .f32⟩ : BufTy).Contents (Elt Ideal)) (x10 : (⟨S32x1, .f32⟩ : BufTy).Contents (Elt Ideal))
    (x11 : (⟨S1, .f32⟩ : BufTy).Contents (Elt Ideal)) :
    val_main_v77 (F := Ideal) x0 x1 x2 x3 x4 x5 x6 x7 x8 x9 x10 x11 =
      headOf (gcnOf (val_main_v4 (F := Ideal) x0 x5) x2 x6) (val_main_v66 (F := Ideal) x1 x3 x4) x0 x7 x9 x8 x10 x11 := by
  funext i
  obtain ⟨r, rfl⟩ := exists_row i
  rewrite [result_at, headOf_apply]
  rfl

end Cert.ReferenceIdeal.RefValue

end
-- ==== Proof.KernelHost.lean ====
/-
  What the host operations of the idealized kernel's @main leave in the buffers the two pallas_calls read.

  Before the first call one operation runs: the two weight matrices Wg and Wr, side by side, as one [128, 64] matrix. The
  first call's region is therefore entered with the paper features as launched and that packed matrix. Between the calls
  the host slices the first call's [200000, 64] result into its left half h and its right half xr, and computes from h, the
  author features and the edge indices exactly what the reference computes: the neighbour mean over the author edges (the
  reference's own stage, of the same arguments) and the graph-convolution branch (`RefValue.gcnOf`, of the kernel's own
  h). It also re-lays the two bias vectors as a [1, 32] row and a [1, 1] entry. No host operation writes an argument.
-/
import proofs.«109172_j57827439674002_1_alg».proof.Proof.Gen.KernelIdeal.Frame
import proofs.«109172_j57827439674002_1_alg».proof.Proof.RefRead
import Idealize.ShloMosaic.Lib.StableHlo.Run

noncomputable section

namespace Cert.KernelIdeal.HostValue

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-! ## The first region's entry contents -/

/-- The paper features reach the first region as launched. -/
theorem V1_arg0 (c : Dev nD) : V1 m ρ c main_arg0 = m ((c : Thread nD τ).loc main_arg0) := by
  show StableHlo.after hostOps0 (W0 m ρ c) (Proc.devRef .tc main_arg0) = _
  after_results

/-- The first region's second operand is the two weight matrices side by side. -/
theorem V1_v0 (c : Dev nD) : V1 m ρ c main_v0 =
    concatenate S128x64 1 [⟨S128x32, m ((c : Thread nD τ).loc main_arg5)⟩, ⟨S128x32, m ((c : Thread nD τ).loc main_arg9)⟩] concatenates_S128x32_S128x32_S128x64_d1 := by
  show StableHlo.after hostOps0 (W0 m ρ c) (Proc.devRef .tc main_v0) = _
  after_results

/-! ## The first region's exit contents: its result array, and the arguments it does not touch -/

/-- The first call's result array is what its pipeline's write-backs leave. -/
theorem W2_v1 (c : Dev nD) : W2 m ρ c (Proc.devRef .tc main_v1) = (dat0 (V1 m ρ) c).arrAt 2 cfg0.N := W2_arr m ρ c 2

theorem W2_arg1 (c : Dev nD) : W2 m ρ c (Proc.devRef .tc main_arg1) = m ((c : Thread nD τ).loc main_arg1) :=
  (W2_of_ne m ρ c main_arg1 (by decide)).trans (by
    show StableHlo.after hostOps0 (W0 m ρ c) (Proc.devRef .tc main_arg1) = _
    after_results)
theorem W2_arg2 (c : Dev nD) : W2 m ρ c (Proc.devRef .tc main_arg2) = m ((c : Thread nD τ).loc main_arg2) :=
  (W2_of_ne m ρ c main_arg2 (by decide)).trans (by
    show StableHlo.after hostOps0 (W0 m ρ c) (Proc.devRef .tc main_arg2) = _
    after_results)
theorem W2_arg3 (c : Dev nD) : W2 m ρ c (Proc.devRef .tc main_arg3) = m ((c : Thread nD τ).loc main_arg3) :=
  (W2_of_ne m ρ c main_arg3 (by decide)).trans (by
    show StableHlo.after hostOps0 (W0 m ρ c) (Proc.devRef .tc main_arg3) = _
    after_results)
theorem W2_arg4 (c : Dev nD) : W2 m ρ c (Proc.devRef .tc main_arg4) = m ((c : Thread nD τ).loc main_arg4) :=
  (W2_of_ne m ρ c main_arg4 (by decide)).trans (by
    show StableHlo.after hostOps0 (W0 m ρ c) (Proc.devRef .tc main_arg4) = _
    after_results)
theorem W2_arg6 (c : Dev nD) : W2 m ρ c (Proc.devRef .tc main_arg6) = m ((c : Thread nD τ).loc main_arg6) :=
  (W2_of_ne m ρ c main_arg6 (by decide)).trans (by
    show StableHlo.after hostOps0 (W0 m ρ c) (Proc.devRef .tc main_arg6) = _
    after_results)
theorem W2_arg7 (c : Dev nD) : W2 m ρ c (Proc.devRef .tc main_arg7) = m ((c : Thread nD τ).loc main_arg7) :=
  (W2_of_ne m ρ c main_arg7 (by decide)).trans (by
    show StableHlo.after hostOps0 (W0 m ρ c) (Proc.devRef .tc main_arg7) = _
    after_results)
theorem W2_arg8 (c : Dev nD) : W2 m ρ c (Proc.devRef .tc main_arg8) = m ((c : Thread nD τ).loc main_arg8) :=
  (W2_of_ne m ρ c main_arg8 (by decide)).trans (by
    show StableHlo.after hostOps0 (W0 m ρ c) (Proc.devRef .tc main_arg8) = _
    after_results)
theorem W2_arg10 (c : Dev nD) : W2 m ρ c (Proc.devRef .tc main_arg10) = m ((c : Thread nD τ).loc main_arg10) :=
  (W2_of_ne m ρ c main_arg10 (by decide)).trans (by
    show StableHlo.after hostOps0 (W0 m ρ c) (Proc.devRef .tc main_arg10) = _
    after_results)
theorem W2_arg11 (c : Dev nD) : W2 m ρ c (Proc.devRef .tc main_arg11) = m ((c : Thread nD τ).loc main_arg11) :=
  (W2_of_ne m ρ c main_arg11 (by decide)).trans (by
    show StableHlo.after hostOps0 (W0 m ρ c) (Proc.devRef .tc main_arg11) = _
    after_results)

/-! ## The second region's entry contents -/

/-- The left half of the first call's result: the transformed features h. -/
theorem V3_v2 (c : Dev nD) : V3 m ρ c main_v2 =
    extractStridedSlice S200000x32 ![0, 0] (W2 m ρ c (Proc.devRef .tc main_v1)) slices_S200000x64_S200000x32_0_0 := by
  show StableHlo.after hostOps1 (W2 m ρ c) (Proc.devRef .tc main_v2) = _
  simp only [hostOps1]
  after_results_simp

/-- The right half of the first call's result: the root term xr. -/
theorem V3_v3 (c : Dev nD) : V3 m ρ c main_v3 =
    extractStridedSlice S200000x32 ![0, 32] (W2 m ρ c (Proc.devRef .tc main_v1)) slices_S200000x64_S200000x32_0_32 := by
  show StableHlo.after hostOps1 (W2 m ρ c) (Proc.devRef .tc main_v3) = _
  simp only [hostOps1]
  after_results_simp

/-- The neighbour-mean branch's bias as a [1, 32] row. -/
theorem V3_v70 (c : Dev nD) : V3 m ρ c main_v70 = shapeCast S1x32 (m ((c : Thread nD τ).loc main_arg8)) shapeCasts_S32_S1x32 := by
  show StableHlo.after hostOps1 (W2 m ρ c) (Proc.devRef .tc main_v70) = _
  simp only [hostOps1]
  after_results_simp
  rw [W2_arg8]
  rfl

/-- The output bias as a [1, 1] entry. -/
theorem V3_v71 (c : Dev nD) : V3 m ρ c main_v71 = shapeCast S1x1 (m ((c : Thread nD τ).loc main_arg11)) shapeCasts_S1_S1x1 := by
  show StableHlo.after hostOps1 (W2 m ρ c) (Proc.devRef .tc main_v71) = _
  simp only [hostOps1]
  after_results_simp
  rw [W2_arg11]
  rfl

/-- The neighbour-mean branch's weights reach the second region as launched. -/
theorem V3_arg7 (c : Dev nD) : V3 m ρ c main_arg7 = m ((c : Thread nD τ).loc main_arg7) := by
  show StableHlo.after hostOps1 (W2 m ρ c) (Proc.devRef .tc main_arg7) = _
  simp only [hostOps1]
  after_results_simp
  exact W2_arg7 m ρ c

/-- The output weights reach the second region as launched. -/
theorem V3_arg10 (c : Dev nD) : V3 m ρ c main_arg10 = m ((c : Thread nD τ).loc main_arg10) := by
  show StableHlo.after hostOps1 (W2 m ρ c) (Proc.devRef .tc main_arg10) = _
  simp only [hostOps1]
  after_results_simp
  exact W2_arg10 m ρ c

set_option maxHeartbeats 4000000 in
/-- The neighbour mean over the author edges: the same operations, on the same three arguments, as the reference's. -/
theorem V3_v69 (c : Dev nD) : V3 m ρ c main_v69 =
    Cert.ReferenceIdeal.Read.val_main_v66 (F := Ideal) (m ((c : Thread nD τ).loc main_arg1)) (m ((c : Thread nD τ).loc main_arg3)) (m ((c : Thread nD τ).loc main_arg4)) := by
  show StableHlo.after hostOps1 (W2 m ρ c) (Proc.devRef .tc main_v69) = _
  simp only [hostOps1]
  after_results_simp
  rw [W2_arg1, W2_arg3, W2_arg4]
  rfl

set_option maxHeartbeats 4000000 in
/-- The graph-convolution branch: the same operations as the reference's, applied to the kernel's own transformed
    features (the left half of the first call's result), the citation edge indices and the bias. -/
theorem V3_v50 (c : Dev nD) : V3 m ρ c main_v50 =
    Cert.ReferenceIdeal.RefValue.gcnOf
      (extractStridedSlice S200000x32 ![0, 0] (W2 m ρ c (Proc.devRef .tc main_v1)) slices_S200000x64_S200000x32_0_0)
      (m ((c : Thread nD τ).loc main_arg2)) (m ((c : Thread nD τ).loc main_arg6)) := by
  show StableHlo.after hostOps1 (W2 m ρ c) (Proc.devRef .tc main_v50) = _
  simp only [hostOps1]
  after_results_simp
  rw [W2_arg2, W2_arg6]
  generalize W2 m ρ c (Proc.devRef .tc main_v1) = y
  rfl

end Cert.KernelIdeal.HostValue

end
-- ==== Proof.KernelValue.lean ====
/-
  The idealized kernel's result array as the same function of the arguments as the reference's.

  The first pallas_call multiplies the paper features by the two weight matrices Wg and Wr laid side by side, so its
  [200000, 64] result holds x · Wg in its left 32 columns and x · Wr in its right 32 columns: an entry of the product reads
  one column of the packed matrix, and a column of the packed matrix is a column of Wg or of Wr. The left half is therefore
  the reference's transformed features h, entry by entry, and so the graph-convolution branch the host computes from it
  is the reference's; the right half is the root term x · Wr that the reference computes by a product of its own.
  The second pallas_call adds, row by row, (mean · Wl + bl) + x · Wr and then the graph-convolution branch, and projects
  on the output column; the reference adds the graph-convolution branch on the other side. Addition of extended reals is
  commutative (no finiteness is needed for that), so the two results are one function of the arguments.
-/
import proofs.«109172_j57827439674002_1_alg».proof.Proof.PackedProduct
import proofs.«109172_j57827439674002_1_alg».proof.Proof.CombineHead
import proofs.«109172_j57827439674002_1_alg».proof.Proof.KernelHost
import Idealize.ShloMosaic.Lib.Pipeline.Value
import Idealize.ShloMosaic.Lib.ValueIdx
import Idealize.ShloMosaic.Lib.ValueLayout

noncomputable section

namespace Cert.KernelIdeal.ResultValue

open Cert.KernelIdeal Cert.KernelIdeal.Gen
open Idealize.ShloMosaic Idealize.ShloMosaic.TcCoe Idealize.SL.Sem Idealize.ShloMosaic.ValueIdx
open Cert.KernelIdeal.PackedProduct (rowProduct rowProduct_apply packed_eq)
open Cert.KernelIdeal.HostValue
open Cert.ReferenceIdeal.RefValue (gcnOf headOf headOf_apply exists_row feat_at)

/-! ## The packed weight matrix and the two halves of the product, at an entry -/

/-- The two weight matrices side by side. -/
abbrev packed (x5 x9 : S128x32.Idx → EReal) : S128x64.Idx → EReal :=
  concatenate S128x64 1 [⟨S128x32, x5⟩, ⟨S128x32, x9⟩] concatenates_S128x32_S128x32_S128x64_d1

/-- A column q < 32 of the packed matrix is column q of the first matrix. -/
theorem packed_left (x5 x9 : S128x32.Idx → EReal) (k : Fin 128) (j : Fin 32) (q : Fin 64) (hq : q.val = j.val) :
    packed x5 x9 (ix2 k q) = x5 (ix2 k j) :=
  concatenate_pair_apply_left (1 : Fin S128x64.rank) x5 x9 concatenates_S128x32_S128x32_S128x64_d1 (ix2 k q) rfl (ix2 k j) (fun ax => by
    match ax with
    | ⟨0, _⟩ => rfl
    | ⟨1, _⟩ => exact hq.symm)

/-- A column q = 32 + j of the packed matrix is column j of the second matrix. -/
theorem packed_right (x5 x9 : S128x32.Idx → EReal) (k : Fin 128) (j : Fin 32) (q : Fin 64) (hq : q.val = 32 + j.val) :
    packed x5 x9 (ix2 k q) = x9 (ix2 k j) :=
  concatenate_pair_apply_right (1 : Fin S128x64.rank) x5 x9 concatenates_S128x32_S128x32_S128x64_d1 (ix2 k q) rfl rfl (ix2 k j) (fun ax hne => by
    match ax with
    | ⟨0, _⟩ => rfl
    | ⟨1, _⟩ => exact absurd rfl hne) (by show j.val + 32 = q.val; omega)

/-- The left 32 columns of a [200000, 64] array, at (r, j). -/
theorem left_half (y : S200000x64.Idx → EReal) (r : Fin 200000) (j : Fin 32) :
    extractStridedSlice S200000x32 ![0, 0] y slices_S200000x64_S200000x32_0_0 (ix2 r j) = y (ix2 r (⟨j.val, by omega⟩ : Fin 64)) :=
  slice2_axis1_apply 0 y slices_S200000x64_S200000x32_0_0 r j ⟨j.val, by omega⟩ (Nat.zero_add _).symm

/-- The right 32 columns of a [200000, 64] array, at (r, j). -/
theorem right_half (y : S200000x64.Idx → EReal) (r : Fin 200000) (j : Fin 32) :
    extractStridedSlice S200000x32 ![0, 32] y slices_S200000x64_S200000x32_0_32 (ix2 r j) = y (ix2 r (⟨32 + j.val, by omega⟩ : Fin 64)) :=
  slice2_axis1_apply 32 y slices_S200000x64_S200000x32_0_32 r j ⟨32 + j.val, by omega⟩ rfl

/-- The left half of x · [Wg | Wr] is the reference's transformed features x · Wg. -/
theorem left_is_feat (x0 : S200000x128.Idx → EReal) (x5 x9 : S128x32.Idx → EReal) :
    extractStridedSlice S200000x32 ![0, 0] (rowProduct x0 (packed x5 x9)) slices_S200000x64_S200000x32_0_0
      = Cert.ReferenceIdeal.Read.val_main_v4 (F := Ideal) x0 x5 := by
  funext i
  obtain ⟨r, j, rfl⟩ : ∃ (r : Fin 200000) (j : Fin 32), i = ix2 r j := ⟨i 0, i 1, eq_ix2 i⟩
  rewrite [left_half, rowProduct_apply, feat_at]
  refine Finset.sum_congr rfl fun k _ => ?_
  rewrite [packed_left x5 x9 k j _ rfl]
  rfl

/-- The right half of x · [Wg | Wr], at (r, j), is row r of x against column j of Wr. -/
theorem right_is_root (x0 : S200000x128.Idx → EReal) (x5 x9 : S128x32.Idx → EReal) (r : Fin 200000) (j : Fin 32) :
    extractStridedSlice S200000x32 ![0, 32] (rowProduct x0 (packed x5 x9)) slices_S200000x64_S200000x32_0_32 (ix2 r j)
      = ∑ k : Fin 128, x0 (ix2 r k) * x9 (ix2 k j) := by
  rewrite [right_half, rowProduct_apply]
  refine Finset.sum_congr rfl fun k _ => ?_
  rewrite [packed_right x5 x9 k j _ rfl]
  rfl

/-- The second call's row, with its two biases and its root term read at their entries, is the common function at that
    row: the body adds the graph-convolution term `G` last, the common function adds it first, and addition of
    extended reals is commutative. It holds of arbitrary arrays: only the three entry equations are used. -/
theorem head_comm (G : S200000x32.Idx → EReal) (M x0 : S200000x128.Idx → EReal) (w7 w9 : S128x32.Idx → EReal) (b8 : S32.Idx → EReal)
    (w10 : S32x1.Idx → EReal) (b11 : S1.Idx → EReal) (b70 : S1x32.Idx → EReal) (b71 : S1x1.Idx → EReal) (xr : S200000x32.Idx → EReal)
    (r : Fin 200000) (h70 : ∀ j : Fin 32, b70 (ix2 (0 : Fin 1) j) = b8 (ix1 j)) (h71 : b71 (ix2 (0 : Fin 1) (0 : Fin 1)) = b11 (ix1 (0 : Fin 1)))
    (hxr : ∀ j : Fin 32, xr (ix2 r j) = ∑ k : Fin 128, x0 (ix2 r k) * w9 (ix2 k j)) :
    (∑ j : Fin 32, ((((∑ k : Fin 128, M (ix2 r k) * w7 (ix2 k j)) + b70 (ix2 (0 : Fin 1) j)) + xr (ix2 r j)) + G (ix2 r j)) * w10 (ix2 j (0 : Fin 1)))
        + b71 (ix2 (0 : Fin 1) (0 : Fin 1))
      = headOf G M x0 w7 w9 b8 w10 b11 (ix2 r (0 : Fin 1)) := by
  rw [headOf_apply, h71]
  congr 1
  refine Finset.sum_congr rfl fun j _ => ?_
  rw [h70, hxr, add_comm]

variable (m : (ℓ : Loc nD τ sig) → Buf (Elt Ideal) ℓ) (ρ : Dev nD → PrngReg)

/-- The first call's result array is the paper features times the packed weight matrix, row by column. -/
theorem first_result (c : Dev nD) : W2 m ρ c (Proc.devRef .tc main_v1) =
    rowProduct (m ((c : Thread nD τ).loc main_arg0)) (packed (m ((c : Thread nD τ).loc main_arg5)) (m ((c : Thread nD τ).loc main_arg9))) := by
  rw [W2_v1, packed_eq, V1_arg0, V1_v0]

/-- THE KERNEL'S RESULT ARRAY is the reference's function of the same arguments. -/
theorem result_eq (c : Dev nD) : (dat1 (V3 m ρ) c).arrAt 7 cfg1.N =
    headOf (gcnOf (Cert.ReferenceIdeal.Read.val_main_v4 (F := Ideal) (m ((c : Thread nD τ).loc main_arg0)) (m ((c : Thread nD τ).loc main_arg5)))
        (m ((c : Thread nD τ).loc main_arg2)) (m ((c : Thread nD τ).loc main_arg6)))
      (Cert.ReferenceIdeal.Read.val_main_v66 (F := Ideal) (m ((c : Thread nD τ).loc main_arg1)) (m ((c : Thread nD τ).loc main_arg3)) (m ((c : Thread nD τ).loc main_arg4)))
      (m ((c : Thread nD τ).loc main_arg0)) (m ((c : Thread nD τ).loc main_arg7)) (m ((c : Thread nD τ).loc main_arg9))
      (m ((c : Thread nD τ).loc main_arg8)) (m ((c : Thread nD τ).loc main_arg10)) (m ((c : Thread nD τ).loc main_arg11)) := by
  funext i
  obtain ⟨r, rfl⟩ := exists_row i
  rewrite [Cert.KernelIdeal.CombineHead.head_apply_of (V3 m ρ) c r _ _ _ _ _ _ _ (V3_v69 m ρ c) (V3_v3 m ρ c) (V3_v50 m ρ c)
    (V3_arg7 m ρ c) (V3_v70 m ρ c) (V3_arg10 m ρ c) (V3_v71 m ρ c)]
  rewrite [first_result, left_is_feat]
  have H := head_comm
    (gcnOf (Cert.ReferenceIdeal.Read.val_main_v4 (F := Ideal) (m ((c : Thread nD τ).loc main_arg0)) (m ((c : Thread nD τ).loc main_arg5)))
      (m ((c : Thread nD τ).loc main_arg2)) (m ((c : Thread nD τ).loc main_arg6)))
    (Cert.ReferenceIdeal.Read.val_main_v66 (F := Ideal) (m ((c : Thread nD τ).loc main_arg1)) (m ((c : Thread nD τ).loc main_arg3)) (m ((c : Thread nD τ).loc main_arg4)))
    (m ((c : Thread nD τ).loc main_arg0)) (m ((c : Thread nD τ).loc main_arg7)) (m ((c : Thread nD τ).loc main_arg9))
    (m ((c : Thread nD τ).loc main_arg8)) (m ((c : Thread nD τ).loc main_arg10)) (m ((c : Thread nD τ).loc main_arg11))
    (shapeCast S1x32 (m ((c : Thread nD τ).loc main_arg8)) shapeCasts_S32_S1x32)
    (shapeCast S1x1 (m ((c : Thread nD τ).loc main_arg11)) shapeCasts_S1_S1x1)
    (extractStridedSlice S200000x32 ![0, 32]
      (rowProduct (m ((c : Thread nD τ).loc main_arg0)) (packed (m ((c : Thread nD τ).loc main_arg5)) (m ((c : Thread nD τ).loc main_arg9))))
      slices_S200000x64_S200000x32_0_32)
    r
    (fun j => shapeCast_a_1a_apply (m ((c : Thread nD τ).loc main_arg8)) shapeCasts_S32_S1x32 (0 : Fin 1) j)
    (shapeCast_a_1a_apply (m ((c : Thread nD τ).loc main_arg11)) shapeCasts_S1_S1x1 (0 : Fin 1) (0 : Fin 1))
    (fun j => right_is_root (m ((c : Thread nD τ).loc main_arg0)) (m ((c : Thread nD τ).loc main_arg5)) (m ((c : Thread nD τ).loc main_arg9)) r j)
  show @Eq EReal _ _
  exact H

end Cert.KernelIdeal.ResultValue

end
-- ==== Proof.lean ====
/-
  A heterogeneous graph layer on 200000 papers: a graph convolution over the citation edges and a neighbour-mean layer over
  the author edges, summed and projected on one output column. The kernel program computes the two dense products of the
  paper features (x · Wg and x · Wr) as ONE product with the two weight matrices side by side, in a first pallas_call tiled
  over blocks of 8000 rows; runs the same gathers and scatter-adds as the reference on the host; and adds the three pieces,
  projects and adds the bias in a second pallas_call tiled the same way. The reference does everything with host operations.

  At the ideal instance (floats are extended reals, operations exact, format changes the identity) both result arrays are
  one function of the twelve arguments (`RefValue.headOf` of the graph-convolution branch, the neighbour mean and the dense
  arguments): a column of the packed weight matrix is a column of Wg or of Wr, so the halves of the packed product are the two
  products; the host operations between the calls are the reference's own, applied to the same arrays; a tpu.matmul into a
  zero accumulator is the host's dot_general; and the kernel's (a + b) + g is the reference's g + (a + b), addition of
  extended reals being commutative. No finiteness of the inputs is used.

  The three frames: the two kernel programs' are the generated frame certificates (two class-A regions among host
  operations); the reference's is its generated run with the result dropped. The ideal pass rewrote nothing, so `preserves`
  is `True`.
-/
import proofs.«109172_j57827439674002_1_alg».proof.Defs
import proofs.«109172_j57827439674002_1_alg».proof.Proof.Gen.Kernel
import proofs.«109172_j57827439674002_1_alg».proof.Proof.Gen.Kernel.Skeleton
import proofs.«109172_j57827439674002_1_alg».proof.Proof.Gen.Kernel.Launch
import proofs.«109172_j57827439674002_1_alg».proof.Proof.Gen.Kernel.Points
import proofs.«109172_j57827439674002_1_alg».proof.Proof.Gen.Kernel.Frame
import proofs.«109172_j57827439674002_1_alg».proof.Proof.Gen.KernelIdeal
import proofs.«109172_j57827439674002_1_alg».proof.Proof.Gen.KernelIdeal.Skeleton
import proofs.«109172_j57827439674002_1_alg».proof.Proof.Gen.KernelIdeal.Launch
import proofs.«109172_j57827439674002_1_alg».proof.Proof.Gen.KernelIdeal.Points
import proofs.«109172_j57827439674002_1_alg».proof.Proof.Gen.KernelIdeal.Frame
import proofs.«109172_j57827439674002_1_alg».proof.Proof.Gen.ReferenceIdeal
import proofs.«109172_j57827439674002_1_alg».proof.Proof.Gen.ReferenceIdeal.Run
import proofs.«109172_j57827439674002_1_alg».proof.Proof.Gen.ReferenceIdeal.Read
import proofs.«109172_j57827439674002_1_alg».proof.Proof.Gen.Pre_finite_inputs
import proofs.«109172_j57827439674002_1_alg».proof.Proof.ResultRun
import proofs.«109172_j57827439674002_1_alg».proof.Proof.KernelValue
import Idealize.ShloMosaic.Adequacy
import Idealize.ShloMosaic.Init

noncomputable section

namespace Cert.Proof

open Idealize.ShloMosaic Idealize.SL.Sem

/-- The printed kernel runs and leaves its arguments as launched: the generated frame certificate. -/
theorem frame_kernel : Cert.frame_Kernel := fun m ρ _ => Cert.Kernel.Gen.frame m ρ

/-- The idealized kernel runs and leaves its arguments as launched: the generated frame certificate. -/
theorem frame_kernel_ideal : Cert.frame_KernelIdeal := fun m ρ _ => Cert.KernelIdeal.Gen.frame m ρ

/-- The idealized reference runs and leaves its arguments as launched: its generated run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The ideal pass rewrote no operation of the kernel. -/
theorem preserves : Cert.preserves_Kernel_KernelIdeal := trivial

/-- From memories agreeing on the twelve arguments both idealized programs run, and end with one result array: the
    kernel's is what its second region's write-backs leave, which is the common function of the arguments
    (`ResultValue.result_eq`); the reference's is its run's term, the same function (`RefValue.result_eq`). -/
theorem algebraic : Cert.algebraic_KernelIdeal_ReferenceIdeal := by
  intro m ρ m' ρ' _ hagree
  refine ⟨fun c => (Cert.KernelIdeal.Gen.dat1 (Cert.KernelIdeal.Gen.V3 m ρ) c).arrAt 7 Cert.KernelIdeal.cfg1.N,
    Cert.KernelIdeal.ResultRun.run_array m ρ, ?_⟩
  refine (θ_run Cert.ReferenceIdeal.defs _ _).mono (fun _ h c => ⟨(h c).1.trans ?_, (h c).2⟩)
    (Cert.ReferenceIdeal.Value.run (F := Ideal) m' ρ')
  show Cert.ReferenceIdeal.Value.res_main_v77 m' c = (Cert.KernelIdeal.Gen.dat1 (Cert.KernelIdeal.Gen.V3 m ρ) c).arrAt 7 Cert.KernelIdeal.cfg1.N
  obtain ⟨h0, h1, h2, h3, h4, h5, h6, h7, h8, h9, h10, h11⟩ := hagree c
  rw [Cert.ReferenceIdeal.Read.val_main_v77_eq, Cert.ReferenceIdeal.RefValue.result_eq, Cert.KernelIdeal.ResultValue.result_eq,
    h0, h1, h2, h3, h4, h5, h6, h7, h8, h9, h10, h11]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
